-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x64x64 : Shape := ⟨4, ![32, 512, 64, 64]⟩
abbrev S128x512 : Shape := ⟨2, ![128, 512]⟩
abbrev S128 : Shape := ⟨1, ![128]⟩
abbrev S512x128 : Shape := ⟨2, ![512, 128]⟩
abbrev S512 : Shape := ⟨1, ![512]⟩
abbrev S_ : Shape := ⟨0, ![]⟩

class Facts : Prop where
  bcast_S_S32x512x64x64 : S_.BroadcastsInDim S32x512x64x64 (![] : Fin 0 → Fin S32x512x64x64.rank)
  reducesTo_S32x512x64x64_S_d0_1_2_3 : S32x512x64x64.ReducesTo [0, 1, 2, 3] S_
  h_S_ : 0 < S_.numel
  bcast_S_S128x512 : S_.BroadcastsInDim S128x512 (![] : Fin 0 → Fin S128x512.rank)
  reducesTo_S128x512_S_d0_1 : S128x512.ReducesTo [0, 1] S_
  bcast_S_S128 : S_.BroadcastsInDim S128 (![] : Fin 0 → Fin S128.rank)
  reducesTo_S128_S_d0 : S128.ReducesTo [0] S_
  bcast_S_S512x128 : S_.BroadcastsInDim S512x128 (![] : Fin 0 → Fin S512x128.rank)
  reducesTo_S512x128_S_d0_1 : S512x128.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S128 .f32) (main_arg5 : FVec F S512x128 .f32) (main_arg6 : FVec F S512 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S512x128 .f32 := Host.absf main_arg5
  let main_cst_8 : FVec F S_ .f32 := constant S_ .f32 0x7F800000#32
  let main_v25 : FVec F S512x128 .f32 := broadcastInDim S512x128 ![] bcast_S_S512x128 main_cst_8
  let main_v26 : IVec S512x128 1 := cmpf .olt main_v24 main_v25
  let main_c_9 : IVec S_ 1 := constantI S_ 1 1#1
  let main_v27 : IVec S_ 1 := (fun x v => Host.reduce IntOp.andi x v reducesTo_S512x128_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  main_v33

def fn {F : FTy → Type} [FloatOps F] (main_arg0 : FVec F S32x512x64x64 .f32) (main_arg1 : FVec F S128x512 .f32) (main_arg2 : FVec F S128 .f32) (main_arg3 : FVec F S128 .f32) (main_arg4 : FVec F S128 .f32) (main_arg5 : FVec F S512x128 .f32) (main_arg6 : FVec F S512 .f32) : IVec S_ 1 :=
  let main_v0 : FVec F S32x512x64x64 .f32 := Host.absf main_arg0
  let main_cst : FVec F S_ .f32 := constant S_ .f32 0x7F800000#32
  let main_v1 : FVec F S32x512x64x64 .f32 := broadcastInDim S32x512x64x64 ![] bcast_S_S32x512x64x64 main_cst
  let main_v2 : IVec S32x512x64x64 1 := cmpf .olt main_v0 main_v1
  let main_c : IVec S_ 1 := constantI S_ 1 1#1
  let main_v3 : IVec S_ 1 := (fun x v => Host.reduce IntOp.andi x v reducesTo_S32x512x64x64_S_d0_1_2_3 h_S_) main_v2 main_c
  let main_v4 : FVec F S128x512 .f32 := Host.absf main_arg1
  let main_cst_0 : FVec F S_ .f32 := constant S_ .f32 0x7F800000#32
  let main_v5 : FVec F S128x512 .f32 := broadcastInDim S128x512 ![] bcast_S_S128x512 main_cst_0
  let main_v6 : IVec S128x512 1 := cmpf .olt main_v4 main_v5
  let main_c_1 : IVec S_ 1 := constantI S_ 1 1#1
  let main_v7 : IVec S_ 1 := (fun x v => Host.reduce IntOp.andi x v reducesTo_S128x512_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_v13 main_v16
-- ==== Kernel.lean ====
abbrev S32x512x64x64 : Shape := ⟨4, ![32, 512, 64, 64]⟩
abbrev S128x512 : Shape := ⟨2, ![128, 512]⟩
abbrev S128 : Shape := ⟨1, ![128]⟩
abbrev S512x128 : Shape := ⟨2, ![512, 128]⟩
abbrev S512 : Shape := ⟨1, ![512]⟩
abbrev S32x512x4096 : Shape := ⟨3, ![32, 512, 4096]⟩
abbrev S32x512 : Shape := ⟨2, ![32, 512]⟩
abbrev S32x128 : Shape := ⟨2, ![32, 128]⟩
abbrev S1x128 : Shape := ⟨2, ![1, 128]⟩
abbrev S_ : Shape := ⟨0, ![]⟩
abbrev S1x512 : Shape := ⟨2, ![1, 512]⟩
abbrev S32x512x1 : Shape := ⟨3, ![32, 512, 1]⟩
abbrev S8x128x4096 : Shape := ⟨3, ![8, 128, 4096]⟩
abbrev S8x128 : Shape := ⟨2, ![8, 128]⟩
abbrev S8x64x4096 : Shape := ⟨3, ![8, 64, 4096]⟩
abbrev S8x64x1 : Shape := ⟨3, ![8, 64, 1]⟩

abbrev nBuf : Space → Nat
  | .hbm => 75
  | .vmem => 10
  | .smem => 0
  | _ => 0

abbrev bufTy : (tb : Table) → Fin (tcTables nBuf tb) → BufTy
  | .hbm, ⟨0, _⟩ => ⟨S32x512x64x64, .f32⟩
  | .hbm, ⟨1, _⟩ => ⟨S128x512, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S512x128, .f32⟩
  | .hbm, ⟨6, _⟩ => ⟨S512, .f32⟩
  | .hbm, ⟨7, _⟩ => ⟨S32x512x4096, .f32⟩
  | .hbm, ⟨8, _⟩ => ⟨S32x512, .f32⟩
  | .hbm, ⟨9, _⟩ => ⟨S32x128, .f32⟩
  | .hbm, ⟨10, _⟩ => ⟨S1x128, .f32⟩
  | .hbm, ⟨11, _⟩ => ⟨S32x128, .f32⟩
  | .hbm, ⟨12, _⟩ => ⟨S32x128, .f32⟩
  | .hbm, ⟨13, _⟩ => ⟨S_, .f32⟩
  | .hbm, ⟨14, _⟩ => ⟨S32x128, .f32⟩
  | .hbm, ⟨15, _⟩ => ⟨S32x128, .f32⟩
  | .hbm, ⟨16, _⟩ => ⟨S_, .f32⟩
  | .hbm, ⟨17, _⟩ => ⟨S128, .f32⟩
  | .hbm, ⟨18, _⟩ => ⟨S_, .f32⟩
  | .hbm, ⟨19, _⟩ => ⟨S128, .f32⟩
  | .hbm, ⟨20, _⟩ => ⟨S128, .f32⟩
  | .hbm, ⟨21, _⟩ => ⟨S_, .i32⟩
  | .hbm, ⟨22, _⟩ => ⟨S_, .f32⟩
  | .hbm, ⟨23, _⟩ => ⟨S128, .f32⟩
  | .hbm, ⟨24, _⟩ => ⟨S1x128, .f32⟩
  | .hbm, ⟨25, _⟩ => ⟨S_, .f32⟩
  | .hbm, ⟨26, _⟩ => ⟨S1x128, .f32⟩
  | .hbm, ⟨27, _⟩ => ⟨S1x128, .f32⟩
  | .hbm, ⟨28, _⟩ => ⟨S32x128, .f32⟩
  | .hbm, ⟨29, _⟩ => ⟨S32x128, .f32⟩
  | .hbm, ⟨30, _⟩ => ⟨S32x128, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S128, .f32⟩
  | .hbm, ⟨36, _⟩ => ⟨S128, .f32⟩
  | .hbm, ⟨37, _⟩ => ⟨S128, .f32⟩
  | .hbm, ⟨38, _⟩ => ⟨S_, .f32⟩
  | .hbm, ⟨39, _⟩ => ⟨S_, .i1⟩
  | .hbm, ⟨40, _⟩ => ⟨S_, .f32⟩
  | .hbm, ⟨41, _⟩ => ⟨S_, .f32⟩
  | .hbm, ⟨42, _⟩ => ⟨S128, .f32⟩
  | .hbm, ⟨43, _⟩ => ⟨S128, .f32⟩
  | .hbm, ⟨44, _⟩ => ⟨S1x128, .f32⟩
  | .hbm, ⟨45, _⟩ => ⟨S32x128, .f32⟩
  | .hbm, ⟨46, _⟩ => ⟨S32x128, .f32⟩
  | .hbm, ⟨47, _⟩ => ⟨S_, .f32⟩
  | .hbm, ⟨48, _⟩ => ⟨S128, .f32⟩
  | .hbm, ⟨49, _⟩ => ⟨S128, .f32⟩
  | .hbm, ⟨50, _⟩ => ⟨S128, .f32⟩
  | .hbm, ⟨51, _⟩ => ⟨S1x128, .f32⟩
  | .hbm, ⟨52, _⟩ => ⟨S32x128, .f32⟩
  | .hbm, ⟨53, _⟩ => ⟨S32x128, .f32⟩
  | .hbm, ⟨54, _⟩ => ⟨S1x128, .f32⟩
  | .hbm, ⟨55, _⟩ => ⟨S32x128, .f32⟩
  | .hbm, ⟨56, _⟩ => ⟨S32x128, .f32⟩
  | .hbm, ⟨57, _⟩ => ⟨S1x128, .f32⟩
  | .hbm, ⟨58, _⟩ => ⟨S32x128, .f32⟩
  | .hbm, ⟨59, _⟩ => ⟨S32x128, .f32⟩
  | .hbm, ⟨60, _⟩ => ⟨S32x512, .f32⟩
  | .hbm, ⟨61, _⟩ => ⟨S1x512, .f32⟩
  | .hbm, ⟨62, _⟩ => ⟨S32x512, .f32⟩
  | .hbm, ⟨63, _⟩ => ⟨S32x512, .f32⟩
  | .hbm, ⟨64, _⟩ => ⟨S32x512, .f32⟩
  | .hbm, ⟨65, _⟩ => ⟨S32x512, .f32⟩
  | .hbm, ⟨66, _⟩ => ⟨S_, .f32⟩
  | .hbm, ⟨67, _⟩ => ⟨S32x512, .f32⟩
  | .hbm, ⟨68, _⟩ => ⟨S32x512, .f32⟩
  | .hbm, ⟨69, _⟩ => ⟨S_, .f32⟩
  | .hbm, ⟨70, _⟩ => ⟨S32x512, .f32⟩
  | .hbm, ⟨71, _⟩ => ⟨S32x512, .f32⟩
  | .hbm, ⟨72, _⟩ => ⟨S32x512x1, .f32⟩
  | .hbm, ⟨73, _⟩ => ⟨S32x512x4096, .f32⟩
  | .hbm, ⟨74, _⟩ => ⟨S32x512x64x64, .f32⟩
  | .local _ .vmem, ⟨0, _⟩ => ⟨S8x128x4096, .f32⟩
  | .local _ .vmem, ⟨1, _⟩ => ⟨S8x128x4096, .f32⟩
  | .local _ .vmem, ⟨2, _⟩ => ⟨S8x128, .f32⟩
  | .local _ .vmem, ⟨3, _⟩ => ⟨S8x128, .f32⟩
  | .local _ .vmem, ⟨4, _⟩ => ⟨S8x64x4096, .f32⟩
  | .local _ .vmem, ⟨5, _⟩ => ⟨S8x64x4096, .f32⟩
  | .local _ .vmem, ⟨6, _⟩ => ⟨S8x64x1, .f32⟩
  | .local _ .vmem, ⟨7, _⟩ => ⟨S8x64x1, .f32⟩
  | .local _ .vmem, ⟨8, _⟩ => ⟨S8x64x4096, .f32⟩
  | .local _ .vmem, ⟨9, _⟩ => ⟨S8x64x4096, .f32⟩
  | _, _ => ⟨S32x512x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_call0_cst : Ref sig .tc := ⟨.hbm, 13, rfl⟩
abbrev main_call0_call0_v0 : Ref sig .tc := ⟨.hbm, 14, rfl⟩
abbrev main_call0_v6 : Ref sig .tc := ⟨.hbm, 15, rfl⟩
abbrev main_call0_cst : Ref sig .tc := ⟨.hbm, 16, rfl⟩
abbrev main_call0_v7 : Ref sig .tc := ⟨.hbm, 17, rfl⟩
abbrev main_call0_cst_0 : Ref sig .tc := ⟨.hbm, 18, rfl⟩
abbrev main_call0_v8 : Ref sig .tc := ⟨.hbm, 19, rfl⟩
abbrev main_call0_v9 : Ref sig .tc := ⟨.hbm, 20, rfl⟩
abbrev main_call0_c : Ref sig .tc := ⟨.hbm, 21, rfl⟩
abbrev main_call0_call1_cst : Ref sig .tc := ⟨.hbm, 22, rfl⟩
abbrev main_call0_call1_v0 : Ref sig .tc := ⟨.hbm, 23, rfl⟩
abbrev main_call0_call1_v1 : Ref sig .tc := ⟨.hbm, 24, rfl⟩
abbrev main_call0_call1_cst_0 : Ref sig .tc := ⟨.hbm, 25, rfl⟩
abbrev main_call0_call1_v2 : Ref sig .tc := ⟨.hbm, 26, rfl⟩
abbrev main_call0_call1_v3 : Ref sig .tc := ⟨.hbm, 27, rfl⟩
abbrev main_call0_call1_v4 : Ref sig .tc := ⟨.hbm, 28, rfl⟩
abbrev main_call0_call1_v5 : Ref sig .tc := ⟨.hbm, 29, rfl⟩
abbrev main_call0_call1_v6 : Ref sig .tc := ⟨.hbm, 30, rfl⟩
abbrev main_call0_call1_v7 : Ref sig .tc := ⟨.hbm, 31, rfl⟩
abbrev main_call0_call1_cst_1 : Ref sig .tc := ⟨.hbm, 32, rfl⟩
abbrev main_call0_call1_v8 : Ref sig .tc := ⟨.hbm, 33, rfl⟩
abbrev main_call0_call1_cst_2 : Ref sig .tc := ⟨.hbm, 34, rfl⟩
abbrev main_call0_call1_v9 : Ref sig .tc := ⟨.hbm, 35, rfl⟩
abbrev main_call0_call1_v10 : Ref sig .tc := ⟨.hbm, 36, rfl⟩
abbrev main_call0_call1_v11 : Ref sig .tc := ⟨.hbm, 37, rfl⟩
abbrev main_call0_call1_cst_3 : Ref sig .tc := ⟨.hbm, 38, rfl⟩
abbrev main_call0_call1_v12 : Ref sig .tc := ⟨.hbm, 39, rfl⟩
abbrev main_call0_call1_cst_4 : Ref sig .tc := ⟨.hbm, 40, rfl⟩
abbrev main_call0_call1_call0_v0 : Ref sig .tc := ⟨.hbm, 41, rfl⟩
abbrev main_call0_call1_call0_v1 : Ref sig .tc := ⟨.hbm, 42, rfl⟩
abbrev main_call0_v10 : Ref sig .tc := ⟨.hbm, 43, rfl⟩
abbrev main_call0_v11 : Ref sig .tc := ⟨.hbm, 44, rfl⟩
abbrev main_call0_v12 : Ref sig .tc := ⟨.hbm, 45, rfl⟩
abbrev main_call0_v13 : Ref sig .tc := ⟨.hbm, 46, rfl⟩
abbrev main_call0_cst_1 : Ref sig .tc := ⟨.hbm, 47, rfl⟩
abbrev main_call0_v14 : Ref sig .tc := ⟨.hbm, 48, rfl⟩
abbrev main_call0_v15 : Ref sig .tc := ⟨.hbm, 49, rfl⟩
abbrev main_call0_v16 : Ref sig .tc := ⟨.hbm, 50, rfl⟩
abbrev main_call0_v17 : Ref sig .tc := ⟨.hbm, 51, rfl⟩
abbrev main_call0_v18 : Ref sig .tc := ⟨.hbm, 52, rfl⟩
abbrev main_call0_v19 : Ref sig .tc := ⟨.hbm, 53, rfl⟩
abbrev main_call0_v20 : Ref sig .tc := ⟨.hbm, 54, rfl⟩
abbrev main_call0_v21 : Ref sig .tc := ⟨.hbm, 55, rfl⟩
abbrev main_call0_v22 : Ref sig .tc := ⟨.hbm, 56, rfl⟩
abbrev main_call0_v23 : Ref sig .tc := ⟨.hbm, 57, rfl⟩
abbrev main_call0_v24 : Ref sig .tc := ⟨.hbm, 58, rfl⟩
abbrev main_call0_v25 : Ref sig .tc := ⟨.hbm, 59, rfl⟩
abbrev main_call0_v26 : Ref sig .tc := ⟨.hbm, 60, rfl⟩
abbrev main_call0_v27 : Ref sig .tc := ⟨.hbm, 61, rfl⟩
abbrev main_call0_v28 : Ref sig .tc := ⟨.hbm, 62, rfl⟩
abbrev main_call0_v29 : Ref sig .tc := ⟨.hbm, 63, rfl⟩
abbrev main_call0_v30 : Ref sig .tc := ⟨.hbm, 64, rfl⟩
abbrev main_call0_v31 : Ref sig .tc := ⟨.hbm, 65, rfl⟩
abbrev main_call0_cst_2 : Ref sig .tc := ⟨.hbm, 66, rfl⟩
abbrev main_call0_v32 : Ref sig .tc := ⟨.hbm, 67, rfl⟩
abbrev main_call0_v33 : Ref sig .tc := ⟨.hbm, 68, rfl⟩
abbrev main_call0_cst_3 : Ref sig .tc := ⟨.hbm, 69, rfl⟩
abbrev main_call0_v34 : Ref sig .tc := ⟨.hbm, 70, rfl⟩
abbrev main_call0_v35 : Ref sig .tc := ⟨.hbm, 71, rfl⟩
abbrev main_call0_v36 : Ref sig .tc := ⟨.hbm, 72, rfl⟩
abbrev main_call0_v37 : Ref sig .tc := ⟨.hbm, 73, rfl⟩
abbrev main_v0 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S8x128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev grid1 : Pipeline.Grid := ⟨2, ![4, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S8x64x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S8x64x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S8x64x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  shapeCasts_S32x512x64x64_S32x512x4096 : S32x512x64x64.ShapeCasts S32x512x4096
  bcast_S128_S1x128_1 : S128.BroadcastsInDim S1x128 (![1] : Fin 1 → Fin S1x128.rank)
  bcast_S1x128_S32x128_0_1 : S1x128.BroadcastsInDim S32x128 (![0, 1] : Fin 2 → Fin S32x128.rank)
  bcast_S_S32x128 : S_.BroadcastsInDim S32x128 (![] : Fin 0 → Fin S32x128.rank)
  reducesTo_S32x128_S128_d0 : S32x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  bcast_S512_S1x512_1 : S512.BroadcastsInDim S1x512 (![1] : Fin 1 → Fin S1x512.rank)
  bcast_S1x512_S32x512_0_1 : S1x512.BroadcastsInDim S32x512 (![0, 1] : Fin 2 → Fin S32x512.rank)
  bcast_S_S32x512 : S_.BroadcastsInDim S32x512 (![] : Fin 0 → Fin S32x512.rank)
  shapeCasts_S32x512_S32x512x1 : S32x512.ShapeCasts S32x512x1
  shapeCasts_S32x512x4096_S32x512x64x64 : S32x512x4096.ShapeCasts S32x512x64x64
  inb_S8x128x4096_S8x128x4096_0_0_0 : ∀ a, (![0, 0, 0] : Fin 3 → Nat) a + S8x128x4096.size a ≤ S8x128x4096.size a
  h_S8x128x4096 : 0 < S8x128x4096.numel
  shapeCasts_S8x128x4096_S8x128x4096 : S8x128x4096.ShapeCasts S8x128x4096
  reduces_S8x128x4096_S8x128 : S8x128x4096.Reduces [2] S8x128
  inb_S8x128_S8x128_0_0 : ∀ a, (![0, 0] : Fin 2 → Nat) a + S8x128.size a ≤ S8x128.size a
  h_S8x128 : 0 < S8x128.numel
  inb_S8x64x4096_S8x64x4096_0_0_0 : ∀ a, (![0, 0, 0] : Fin 3 → Nat) a + S8x64x4096.size a ≤ S8x64x4096.size a
  h_S8x64x4096 : 0 < S8x64x4096.numel
  shapeCasts_S8x64x4096_S8x64x4096 : S8x64x4096.ShapeCasts S8x64x4096
  inb_S8x64x1_S8x64x1_0_0_0 : ∀ a, (![0, 0, 0] : Fin 3 → Nat) a + S8x64x1.size a ≤ S8x64x1.size a
  h_S8x64x1 : 0 < S8x64x1.numel
  shapeCasts_S8x64x1_S8x64x1 : S8x64x1.ShapeCasts S8x64x1
  broadcasts_S8x64x1_S8x64x4096 : S8x64x1.Broadcasts S8x64x4096
  dot_S32x512_S128x512_S32x128_1_1_0_0_n_n_wf : DotDims.WF S32x512 S128x512 S32x128 [1] [1] [0] [0] [] []
  dot_S32x128_S512x128_S32x512_1_1_0_0_n_n_wf : DotDims.WF S32x128 S512x128 S32x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x128x4096.size a ≤ S32x512x4096.size a
  hwx0_0 : ∀ i : grid0.Coords, EltTy.bits .f32 = 32 ∨ (Rect.block (s := S32x512x4096) S8x128x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x128.size a ≤ S32x512.size a
  hwx0_1 : ∀ i : grid0.Coords, EltTy.bits .f32 = 32 ∨ (Rect.block (s := S32x512) S8x128.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x64x4096.size a ≤ S32x512x4096.size a
  hwx1_0 : ∀ i : grid1.Coords, EltTy.bits .f32 = 32 ∨ (Rect.block (s := S32x512x4096) S8x64x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8x64x1.size a ≤ S32x512x1.size a
  hwx1_1 : ∀ i : grid1.Coords, EltTy.bits .f32 = 32 ∨ (Rect.block (s := S32x512x1) S8x64x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8x64x4096.size a ≤ S32x512x4096.size a
  hwx1_2 : ∀ i : grid1.Coords, EltTy.bits .f32 = 32 ∨ (Rect.block (s := S32x512x4096) S8x64x4096.size (cc1_transform_2 i) (hinb1_2 i)).WholeWords (EltTy.packing .f32)

variable [Facts₀]

def dot_S32x512_S128x512_S32x128_1_1_0_0_n_n : DotDims S32x512 S128x512 S32x128 where
  lhsContracting := [1]
  rhsContracting := [1]
  lhsNonContracting := [0]
  rhsNonContracting := [0]
  lhsBatch := []
  rhsBatch := []
  wf := dot_S32x512_S128x512_S32x128_1_1_0_0_n_n_wf
def dot_S32x128_S512x128_S32x512_1_1_0_0_n_n : DotDims S32x128 S512x128 S32x512 where
  lhsContracting := [1]
  rhsContracting := [1]
  lhsNonContracting := [0]
  rhsNonContracting := [0]
  lhsBatch := []
  rhsBatch := []
  wf := dot_S32x128_S512x128_S32x512_1_1_0_0_n_n_wf

abbrev win0_0 : Pipeline.Window sig grid0 :=
  Pipeline.Window.ofSpec (Memref.whole main_call0_v0) S8x128x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v1) S8x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_call0_v0) S8x64x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v36) S8x64x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_call0_v37) S8x64x4096.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S32x512x64x64 : Shape := ⟨4, ![32, 512, 64, 64]⟩
abbrev S128x512 : Shape := ⟨2, ![128, 512]⟩
abbrev S128 : Shape := ⟨1, ![128]⟩
abbrev S512x128 : Shape := ⟨2, ![512, 128]⟩
abbrev S512 : Shape := ⟨1, ![512]⟩
abbrev S_ : Shape := ⟨0, ![]⟩
abbrev S32x512 : Shape := ⟨2, ![32, 512]⟩
abbrev S32x128 : Shape := ⟨2, ![32, 128]⟩
abbrev S1x128 : Shape := ⟨2, ![1, 128]⟩
abbrev S1x512 : Shape := ⟨2, ![1, 512]⟩
abbrev S32x512x1x1 : Shape := ⟨4, ![32, 512, 1, 1]⟩

abbrev nBuf : Space → Nat
  | .hbm => 78
  | .vmem => 0
  | .smem => 0
  | _ => 0

abbrev bufTy : (tb : Table) → Fin (tcTables nBuf tb) → BufTy
  | .hbm, ⟨0, _⟩ => ⟨S32x512x64x64, .f32⟩
  | .hbm, ⟨1, _⟩ => ⟨S128x512, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S512x128, .f32⟩
  | .hbm, ⟨6, _⟩ => ⟨S512, .f32⟩
  | .hbm, ⟨7, _⟩ => ⟨S_, .f32⟩
  | .hbm, ⟨8, _⟩ => ⟨S32x512, .f32⟩
  | .hbm, ⟨9, _⟩ => ⟨S_, .f32⟩
  | .hbm, ⟨10, _⟩ => ⟨S32x512, .f32⟩
  | .hbm, ⟨11, _⟩ => ⟨S32x512, .f32⟩
  | .hbm, ⟨12, _⟩ => ⟨S32x128, .f32⟩
  | .hbm, ⟨13, _⟩ => ⟨S1x128, .f32⟩
  | .hbm, ⟨14, _⟩ => ⟨S32x128, .f32⟩
  | .hbm, ⟨15, _⟩ => ⟨S32x128, .f32⟩
  | .hbm, ⟨16, _⟩ => ⟨S_, .f32⟩
  | .hbm, ⟨17, _⟩ => ⟨S32x128, .f32⟩
  | .hbm, ⟨18, _⟩ => ⟨S32x128, .f32⟩
  | .hbm, ⟨19, _⟩ => ⟨S_, .f32⟩
  | .hbm, ⟨20, _⟩ => ⟨S128, .f32⟩
  | .hbm, ⟨21, _⟩ => ⟨S_, .f32⟩
  | .hbm, ⟨22, _⟩ => ⟨S128, .f32⟩
  | .hbm, ⟨23, _⟩ => ⟨S128, .f32⟩
  | .hbm, ⟨24, _⟩ => ⟨S_, .i32⟩
  | .hbm, ⟨25, _⟩ => ⟨S_, .f32⟩
  | .hbm, ⟨26, _⟩ => ⟨S128, .f32⟩
  | .hbm, ⟨27, _⟩ => ⟨S1x128, .f32⟩
  | .hbm, ⟨28, _⟩ => ⟨S_, .f32⟩
  | .hbm, ⟨29, _⟩ => ⟨S1x128, .f32⟩
  | .hbm, ⟨30, _⟩ => ⟨S1x128, .f32⟩
  | .hbm, ⟨31, _⟩ => ⟨S32x128, .f32⟩
  | .hbm, ⟨32, _⟩ => ⟨S32x128, .f32⟩
  | .hbm, ⟨33, _⟩ => ⟨S32x128, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S128, .f32⟩
  | .hbm, ⟨39, _⟩ => ⟨S128, .f32⟩
  | .hbm, ⟨40, _⟩ => ⟨S128, .f32⟩
  | .hbm, ⟨41, _⟩ => ⟨S_, .f32⟩
  | .hbm, ⟨42, _⟩ => ⟨S_, .i1⟩
  | .hbm, ⟨43, _⟩ => ⟨S_, .f32⟩
  | .hbm, ⟨44, _⟩ => ⟨S_, .f32⟩
  | .hbm, ⟨45, _⟩ => ⟨S128, .f32⟩
  | .hbm, ⟨46, _⟩ => ⟨S128, .f32⟩
  | .hbm, ⟨47, _⟩ => ⟨S1x128, .f32⟩
  | .hbm, ⟨48, _⟩ => ⟨S32x128, .f32⟩
  | .hbm, ⟨49, _⟩ => ⟨S32x128, .f32⟩
  | .hbm, ⟨50, _⟩ => ⟨S_, .f32⟩
  | .hbm, ⟨51, _⟩ => ⟨S128, .f32⟩
  | .hbm, ⟨52, _⟩ => ⟨S128, .f32⟩
  | .hbm, ⟨53, _⟩ => ⟨S128, .f32⟩
  | .hbm, ⟨54, _⟩ => ⟨S1x128, .f32⟩
  | .hbm, ⟨55, _⟩ => ⟨S32x128, .f32⟩
  | .hbm, ⟨56, _⟩ => ⟨S32x128, .f32⟩
  | .hbm, ⟨57, _⟩ => ⟨S1x128, .f32⟩
  | .hbm, ⟨58, _⟩ => ⟨S32x128, .f32⟩
  | .hbm, ⟨59, _⟩ => ⟨S32x128, .f32⟩
  | .hbm, ⟨60, _⟩ => ⟨S1x128, .f32⟩
  | .hbm, ⟨61, _⟩ => ⟨S32x128, .f32⟩
  | .hbm, ⟨62, _⟩ => ⟨S32x128, .f32⟩
  | .hbm, ⟨63, _⟩ => ⟨S32x512, .f32⟩
  | .hbm, ⟨64, _⟩ => ⟨S1x512, .f32⟩
  | .hbm, ⟨65, _⟩ => ⟨S32x512, .f32⟩
  | .hbm, ⟨66, _⟩ => ⟨S32x512, .f32⟩
  | .hbm, ⟨67, _⟩ => ⟨S32x512, .f32⟩
  | .hbm, ⟨68, _⟩ => ⟨S32x512, .f32⟩
  | .hbm, ⟨69, _⟩ => ⟨S_, .f32⟩
  | .hbm, ⟨70, _⟩ => ⟨S32x512, .f32⟩
  | .hbm, ⟨71, _⟩ => ⟨S32x512, .f32⟩
  | .hbm, ⟨72, _⟩ => ⟨S_, .f32⟩
  | .hbm, ⟨73, _⟩ => ⟨S32x512, .f32⟩
  | .hbm, ⟨74, _⟩ => ⟨S32x512, .f32⟩
  | .hbm, ⟨75, _⟩ => ⟨S32x512x1x1, .f32⟩
  | .hbm, ⟨76, _⟩ => ⟨S32x512x64x64, .f32⟩
  | .hbm, ⟨77, _⟩ => ⟨S32x512x64x64, .f32⟩
  | _, _ => ⟨S32x512x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_call0_cst : Ref sig .tc := ⟨.hbm, 16, rfl⟩
abbrev main_call0_v0 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_c : Ref sig .tc := ⟨.hbm, 24, rfl⟩
abbrev main_call1_cst : Ref sig .tc := ⟨.hbm, 25, rfl⟩
abbrev main_call1_v0 : Ref sig .tc := ⟨.hbm, 26, rfl⟩
abbrev main_call1_v1 : Ref sig .tc := ⟨.hbm, 27, rfl⟩
abbrev main_call1_cst_0 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_call1_v5 : Ref sig .tc := ⟨.hbm, 32, rfl⟩
abbrev main_call1_v6 : Ref sig .tc := ⟨.hbm, 33, rfl⟩
abbrev main_call1_v7 : Ref sig .tc := ⟨.hbm, 34, rfl⟩
abbrev main_call1_cst_1 : Ref sig .tc := ⟨.hbm, 35, rfl⟩
abbrev main_call1_v8 : Ref sig .tc := ⟨.hbm, 36, rfl⟩
abbrev main_call1_cst_2 : Ref sig .tc := ⟨.hbm, 37, rfl⟩
abbrev main_call1_v9 : Ref sig .tc := ⟨.hbm, 38, rfl⟩
abbrev main_call1_v10 : Ref sig .tc := ⟨.hbm, 39, rfl⟩
abbrev main_call1_v11 : Ref sig .tc := ⟨.hbm, 40, rfl⟩
abbrev main_call1_cst_3 : Ref sig .tc := ⟨.hbm, 41, rfl⟩
abbrev main_call1_v12 : Ref sig .tc := ⟨.hbm, 42, rfl⟩
abbrev main_call1_cst_4 : Ref sig .tc := ⟨.hbm, 43, rfl⟩
abbrev main_call1_call0_v0 : Ref sig .tc := ⟨.hbm, 44, rfl⟩
abbrev main_call1_call0_v1 : Ref sig .tc := ⟨.hbm, 45, rfl⟩
abbrev main_v11 : Ref sig .tc := ⟨.hbm, 46, rfl⟩
abbrev main_v12 : Ref sig .tc := ⟨.hbm, 47, rfl⟩
abbrev main_v13 : Ref sig .tc := ⟨.hbm, 48, rfl⟩
abbrev main_v14 : Ref sig .tc := ⟨.hbm, 49, rfl⟩
abbrev main_cst_3 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_cst_4 : Ref sig .tc := ⟨.hbm, 69, rfl⟩
abbrev main_v33 : Ref sig .tc := ⟨.hbm, 70, rfl⟩
abbrev main_v34 : Ref sig .tc := ⟨.hbm, 71, rfl⟩
abbrev main_cst_5 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩

abbrev nD : Nat := 1
abbrev τ : Topo := Topo.v7x

variable {F : FTy → Type} [FloatOps F]

class Facts₀ : Prop where
  reducesTo_S32x512x64x64_S32x512_d2_3 : S32x512x64x64.ReducesTo [2, 3] S32x512
  h_S_ : 0 < S_.numel
  bcast_S_S32x512 : S_.BroadcastsInDim S32x512 (![] : Fin 0 → Fin S32x512.rank)
  bcast_S128_S1x128_1 : S128.BroadcastsInDim S1x128 (![1] : Fin 1 → Fin S1x128.rank)
  bcast_S1x128_S32x128_0_1 : S1x128.BroadcastsInDim S32x128 (![0, 1] : Fin 2 → Fin S32x128.rank)
  bcast_S_S32x128 : S_.BroadcastsInDim S32x128 (![] : Fin 0 → Fin S32x128.rank)
  reducesTo_S32x128_S128_d0 : S32x128.ReducesTo [0] S128
  bcast_S_S128 : S_.BroadcastsInDim S128 (![] : Fin 0 → Fin S128.rank)
  bcast_S_S1x128 : S_.BroadcastsInDim S1x128 (![] : Fin 0 → Fin S1x128.rank)
  bcast_S512_S1x512_1 : S512.BroadcastsInDim S1x512 (![1] : Fin 1 → Fin S1x512.rank)
  bcast_S1x512_S32x512_0_1 : S1x512.BroadcastsInDim S32x512 (![0, 1] : Fin 2 → Fin S32x512.rank)
  bcast_S32x512_S32x512x1x1_0_1 : S32x512.BroadcastsInDim S32x512x1x1 (![0, 1] : Fin 2 → Fin S32x512x1x1.rank)
  bcast_S32x512x1x1_S32x512x64x64_0_1_2_3 : S32x512x1x1.BroadcastsInDim S32x512x64x64 (![0, 1, 2, 3] : Fin 4 → Fin S32x512x64x64.rank)
  dot_S32x512_S128x512_S32x128_1_1_0_0_n_n_wf : DotDims.WF S32x512 S128x512 S32x128 [1] [1] [0] [0] [] []
  dot_S32x128_S512x128_S32x512_1_1_0_0_n_n_wf : DotDims.WF S32x128 S512x128 S32x512 [1] [1] [0] [0] [] []

variable [Facts₀]

def dot_S32x512_S128x512_S32x128_1_1_0_0_n_n : DotDims S32x512 S128x512 S32x128 where
  lhsContracting := [1]
  rhsContracting := [1]
  lhsNonContracting := [0]
  rhsNonContracting := [0]
  lhsBatch := []
  rhsBatch := []
  wf := dot_S32x512_S128x512_S32x128_1_1_0_0_n_n_wf
def dot_S32x128_S512x128_S32x512_1_1_0_0_n_n : DotDims S32x128 S512x128 S32x512 where
  lhsContracting := [1]
  rhsContracting := [1]
  lhsNonContracting := [0]
  rhsNonContracting := [0]
  lhsBatch := []
  rhsBatch := []
  wf := dot_S32x128_S512x128_S32x512_1_1_0_0_n_n_wf

class Facts : Prop extends Facts₀ where

variable [Facts]
-- ==== Proof.KernelRun.lean ====
/-
  The idealized kernel's program run from a launch memory, with every buffer named at the end.

  The program is five stretches in a row: a reshape of the input to [32, 512, 4096]; the pooling region; the sixty-four
  host operations of the channel gate; the multiply region; a reshape of the product back to [32, 512, 64, 64]. The
  contents of every buffer after each stretch are a fold from the launch memory: a host stretch applies its operations,
  a region replaces its windows' arrays by what its write-backs leave and keeps everything else. This module runs the
  program over those five segments and keeps, of the final state, ALL of it: every buffer that is not a staging
  buffer holds the fold's last value. What the result buffer holds is read off that fold in the modules that follow.
-/
import proofs.«110130_j78658031059208_2_alg».proof.Proof.Gen.KernelIdeal.Frame

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The state every core starts from: each buffer that is not a staging buffer at its launch contents, the generator
    register, nothing owed. -/
abbrev start (c : Dev nD) : sProp 𝕄 :=
  iprop(StableHlo.held (c : Thread nD τ) (Pipeline.ucRefs τ sig) (W0 m ρ c) ∗ R c)

set_option backward.isDefEq.respectTransparency.types false in
/-- Every weakly fair execution of the program terminates without a fault, and at the end every buffer that is not a
    staging buffer holds the last value of the fold through the five stretches. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) := by
  refine Pipeline.θ_run_regions_kit (pcfgs (F := F)) adm (pdats m ρ) () cellOf_inj emb₁ defs₀ 𝒱₀ L lv m ρ main (segs m ρ)
    (fun c Q => ?hmain) ?hnd (O₀ := 0) (hL := fun _ _ => rfl) (G := fun _ => iprop(emp))
    (u₀ := initOf (Pipeline.cells cfgs cellOf_inj) (Pipeline.launchToks cfgs cellOf_inj)) ?hu
    (T₀ := start m ρ) (Tₙ := Tₙ m ρ) ?hch ?hinit
    (QY := fun c s => ∀ b ∈ Pipeline.ucRefs τ sig, s.mem (((c : Thread nD τ)).1, b) = W5 m ρ c b)
    (fun c s' => ?hfin) (fun s h => h)
  case hmain => rw [main_run m ρ c]
  case hnd =>
    simp only [segs, Pipeline.Seg.pipes_host, Pipeline.Seg.pipes_region, Pipeline.Seg.pipes_nil]; decide
  case hu =>
    -- the launch element is the pipeline library's own; no core needs a ghost resource of its own
    iintro Hown; imodintro
    isplitl [Hown]
    · iapply (show (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) from .rfl)
      iexact Hown
    · have hemp : (BI.emp : sProp 𝕄) ⊢ bigSep Finset.univ (fun _ : Dev nD => (BI.emp : sProp 𝕄)) := by
        rw [BI.bigSep_emp_const]
      iapply hemp
      iempintro
  case hch =>
    -- each segment is entered from the state the one before it leaves; the last leaves the final fold
    refine ⟨fun _ => .rfl, fun _ => .rfl, fun _ => .rfl, fun _ => .rfl, fun _ => .rfl, fun c => ?_⟩
    dsimp only [Pipeline.Seg.post, hseg, Pipeline.HostSeg.ofOps]
    iintro ⟨Hbufs, Hreg, Howes⟩
    isplitr [Howes]
    · isplitl [Hbufs]
      · iexact Hbufs
      · iexact Hreg
    · iexact Howes
  case hinit =>
    refine Pipeline.initEach L lv fun c => ?_
    rw [show unscopedBufs c (fun b => m ((c : Thread nD τ).loc b)) = StableHlo.held (c : Thread nD τ) (Pipeline.ucRefs τ sig) (W0 m ρ c)
      from Pipeline.unscopedBufs_held c (W0 m ρ c)]
    iintro ⟨⟨Hbufs, -, Howes, -, Hreg, -⟩, -⟩
    imodintro
    isplitl [Hbufs]
    · iexact Hbufs
    isplitl [Hreg]
    · iexists _; iexact Hreg
    · iexists ∅; iexact Howes
  case hfin =>
    -- the buffers held at the fold's last value, beside the state interpretation, say what the memory holds
    iintro ⟨⟨Hbufs, -⟩, HSI⟩
    unfold StableHlo.held
    imodintro
    iapply (pointsTo_read_all (Pipeline.ucRefs τ sig) (fun b => (((c : Thread nD τ)).1, b)) (W5 m ρ c) s')
    isplitl [Hbufs] <;> iassumption

/-- In particular the result buffer. -/
theorem result_mem (r : PUnit × MemSt nD τ sig (Elt F))
    (h : ∀ c : Dev nD, ∀ b ∈ Pipeline.ucRefs τ sig, r.2.mem (((c : Thread nD τ)).1, b) = W5 m ρ c b) (c : Dev nD) :
    r.2.mem ((c.tc : Thread nD τ).loc main_v0) = W5 m ρ c (Proc.devRef .tc main_v0) :=
  h c _ (mem_uc main_v0 (by decide))

end Cert.KernelIdeal.Run

end
-- ==== Proof.LibOutlined.lean ====
/-
  Two facts about a line of host operations, for any program.

  * The buffer contents after two lines run one after the other are the second line's contents from the first's:
    `after (l₁ ++ l₂) V = after l₂ (after l₁ V)`. A long line can therefore be read back one stretch at a time, each
    stretch from an arbitrary valuation, and the readings composed.
  * An operation of an outlined function carries each value to its buffer's own type and, at the next operation, back
    (`TRef.toBuf`, `TRef.ofBuf`: transport along the equation "the buffer's type is the value's"). A value carried there
    and back is unchanged, whatever the buffer: `x.ofBuf (x.toBuf v) = v`. Rewriting with it (it matches syntactically,
    no buffer type is evaluated) clears every intermediate of an outlined function from the contents after its
    operations; what is left are the transports at the function's inputs and results, one small equation each.
-/
import Idealize.ShloMosaic.Lib.StableHlo.Run

noncomputable section

namespace Cert.Lib.Outlined

open Idealize.ShloMosaic Idealize.ShloMosaic.StableHlo

variable {τ : Topo} {sig : RefSig} {Val : EltTy → Type}

/-- The contents after two lines run one after the other. -/
theorem after_append (l₁ l₂ : List (HloOp τ sig Val)) (V : Valuation τ sig Val) :
    after (l₁ ++ l₂) V = after l₂ (after l₁ V) := by
  induction l₁ generalizing V with
  | nil => rfl
  | cons op l ih => exact ih _

/-- Contents carried to a buffer's own type and back are unchanged. -/
theorem ofBuf_toBuf {T : BufTy} (x : TRef sig T) (v : T.Contents Val) : x.ofBuf (x.toBuf v) = v := by
  obtain ⟨r, h, _, _⟩ := x
  subst h
  rfl

/-- The other way round. -/
theorem toBuf_ofBuf {T : BufTy} (x : TRef sig T) (u : x.ref.ty.Contents Val) : x.toBuf (x.ofBuf u) = u := by
  obtain ⟨r, h, _, _⟩ := x
  subst h
  rfl

end Cert.Lib.Outlined

end
-- ==== Proof.Gate.lean ====
/-
  The channel gate as one function.

  Between the average and the final product both programs compute the same thing from the [32, 512] array s of averages
  and the six parameter arrays: hidden = max (s · w1ᵀ + b1, 0), a [32, 128] array; its column mean and column variance
  over the 32 rows (the variance as jnp.var spells it, with its guard on the divisor 32 − 0); the normalised
  (hidden − mean) · rsqrt (var + ε) · gamma + beta; and 1 / (1 + exp (−(y · w2ᵀ + b2))), a [32, 512] array. The two
  programs spell these operations identically, literal for literal, so the certificate names them once and never
  looks inside: what matters is only that both apply THIS function to equal arguments.
-/
import proofs.«110130_j78658031059208_2_alg».proof.Proof.Gen.ReferenceIdeal

noncomputable section

namespace Cert.Gate

open Cert.ReferenceIdeal Cert.ReferenceIdeal.Gen Idealize.ShloMosaic

variable {F : FTy → Type} [FloatOps F]

/-- A vector over the 128 hidden channels as a [32, 128] array of equal rows. -/
def rows128 (v : FVec F S128 .f32) : FVec F S32x128 .f32 :=
  broadcastInDim S32x128 ![0, 1] bcast_S1x128_S32x128_0_1 (broadcastInDim S1x128 ![1] bcast_S128_S1x128_1 v)

/-- max (s · w1ᵀ + b1, 0). -/
def hidden (s : FVec F S32x512 .f32) (w1 : FVec F S128x512 .f32) (b1 : FVec F S128 .f32) : FVec F S32x128 .f32 :=
  maximumf (addf (Host.dotGeneral dot_S32x512_S128x512_S32x128_1_1_0_0_n_n none s w1) (rows128 b1))
    (broadcastInDim S32x128 ![] bcast_S_S32x128 (constant (F := F) S_ .f32 0x00000000#32))

/-- The mean of each column over the 32 rows. -/
def colMean (h : FVec F S32x128 .f32) : FVec F S128 .f32 :=
  Host.divf (Host.reduceAdd h (constant (F := F) S_ .f32 0x00000000#32) reducesTo_S32x128_S128_d0 h_S_)
    (broadcastInDim S128 ![] bcast_S_S128 (constant (F := F) S_ .f32 0x42000000#32))

/-- The variance of each column over the 32 rows: the mean of the squared deviations from the column's mean, the
    divisor 32 − 0 guarded as the library function guards it. -/
def colVar (h : FVec F S32x128 .f32) : FVec F S128 .f32 :=
  select
    (broadcastInDim S128 ![] bcast_S_S128
      (cmpf .ogt (subf (constant (F := F) S_ .f32 0x42000000#32) (sitofp (F := F) .f32 (constantI S_ 32 0#32))) (constant (F := F) S_ .f32 0x00000000#32)))
    (Host.divf
      (Host.reduceAdd
        (mulf
          (subf h (broadcastInDim S32x128 ![0, 1] bcast_S1x128_S32x128_0_1
            (Host.divf (broadcastInDim S1x128 ![1] bcast_S128_S1x128_1
                (Host.reduceAdd h (constant (F := F) S_ .f32 0x00000000#32) reducesTo_S32x128_S128_d0 h_S_))
              (broadcastInDim S1x128 ![] bcast_S_S1x128 (constant (F := F) S_ .f32 0x42000000#32)))))
          (subf h (broadcastInDim S32x128 ![0, 1] bcast_S1x128_S32x128_0_1
            (Host.divf (broadcastInDim S1x128 ![1] bcast_S128_S1x128_1
                (Host.reduceAdd h (constant (F := F) S_ .f32 0x00000000#32) reducesTo_S32x128_S128_d0 h_S_))
              (broadcastInDim S1x128 ![] bcast_S_S1x128 (constant (F := F) S_ .f32 0x42000000#32))))))
        (constant (F := F) S_ .f32 0x00000000#32) reducesTo_S32x128_S128_d0 h_S_)
      (broadcastInDim S128 ![] bcast_S_S128 (subf (constant (F := F) S_ .f32 0x42000000#32) (sitofp (F := F) .f32 (constantI S_ 32 0#32)))))
    (broadcastInDim S128 ![] bcast_S_S128 (id (constant (F := F) S_ .f32 0x7FC00000#32)))

/-- (h − mean) · rsqrt (var + ε) · gamma + beta, column statistics over the rows. -/
def normalised (h : FVec F S32x128 .f32) (gamma beta : FVec F S128 .f32) : FVec F S32x128 .f32 :=
  addf
    (mulf
      (mulf (subf h (rows128 (colMean h)))
        (rows128 (Host.rsqrt (addf (colVar h) (broadcastInDim S128 ![] bcast_S_S128 (constant (F := F) S_ .f32 0x3727C5AC#32))))))
      (rows128 gamma))
    (rows128 beta)

/-- 1 / (1 + exp (−(y · w2ᵀ + b2))). -/
def excitation (y : FVec F S32x128 .f32) (w2 : FVec F S512x128 .f32) (b2 : FVec F S512 .f32) : FVec F S32x512 .f32 :=
  Host.divf (broadcastInDim S32x512 ![] bcast_S_S32x512 (constant (F := F) S_ .f32 0x3F800000#32))
    (addf (broadcastInDim S32x512 ![] bcast_S_S32x512 (constant (F := F) S_ .f32 0x3F800000#32))
      (Host.exp (Host.negf
        (addf (Host.dotGeneral dot_S32x128_S512x128_S32x512_1_1_0_0_n_n none y w2)
          (broadcastInDim S32x512 ![0, 1] bcast_S1x512_S32x512_0_1 (broadcastInDim S1x512 ![1] bcast_S512_S1x512_1 b2))))))

/-- The gate: one weight per (batch, channel) from the averages and the six parameter arrays. -/
def gate (s : FVec F S32x512 .f32) (w1 : FVec F S128x512 .f32) (b1 gamma beta : FVec F S128 .f32)
    (w2 : FVec F S512x128 .f32) (b2 : FVec F S512 .f32) : FVec F S32x512 .f32 :=
  excitation (normalised (hidden s w1 b1) gamma beta) w2 b2

end Cert.Gate

end
-- ==== Proof.KernelHost.lean ====
/-
  The idealized kernel's three stretches of host operations, read over any buffer contents.

  Before the pooling region: one reshape, the input [32, 512, 64, 64] read as [32, 512, 4096]. Between the regions:
  sixty-four operations — the channel gate exactly as the reference spells it (the function `Cert.Gate.gate`), applied
  to the pooled array and the six parameter arrays, and a reshape of the [32, 512] gate to a [32, 512, 1] column.
  After the multiply region: one reshape, the product [32, 512, 4096] read back as [32, 512, 64, 64]. Each is stated
  for ANY contents the stretch is entered from; the flattened input is not written by the gate's stretch, nor the
  parameters by the first reshape.
-/
import proofs.«110130_j78658031059208_2_alg».proof.Proof.Gen.KernelIdeal.Launch
import proofs.«110130_j78658031059208_2_alg».proof.Proof.LibOutlined
import proofs.«110130_j78658031059208_2_alg».proof.Proof.Gate
import Idealize.ShloMosaic.Lib.StableHlo.Run

noncomputable section

namespace Cert.KernelIdeal.HostValue

open Cert.KernelIdeal Cert.KernelIdeal.Gen
open Idealize.ShloMosaic Idealize.ShloMosaic.TcCoe Idealize.SL.Sem Idealize.ShloMosaic.StableHlo

variable {F : FTy → Type} [FloatOps F]

/-- The first stretch leaves the input read as [32, 512, 4096] in the pooling region's input array. -/
theorem flatten_stretch (W : Valuation τ sig (Elt F)) :
    after (hostOps0 (F := F)) W (Proc.devRef .tc main_call0_v0)
      = shapeCast S32x512x4096 (W (Proc.devRef .tc main_arg0)) shapeCasts_S32x512x64x64_S32x512x4096 := by
  after_results
  rfl

/-! It writes no parameter array. -/
theorem flatten_keeps_arg1 (W : Valuation τ sig (Elt F)) :
    after (hostOps0 (F := F)) W (Proc.devRef .tc main_arg1) = W (Proc.devRef .tc main_arg1) := by
  after_results
theorem flatten_keeps_arg2 (W : Valuation τ sig (Elt F)) :
    after (hostOps0 (F := F)) W (Proc.devRef .tc main_arg2) = W (Proc.devRef .tc main_arg2) := by
  after_results
theorem flatten_keeps_arg3 (W : Valuation τ sig (Elt F)) :
    after (hostOps0 (F := F)) W (Proc.devRef .tc main_arg3) = W (Proc.devRef .tc main_arg3) := by
  after_results
theorem flatten_keeps_arg4 (W : Valuation τ sig (Elt F)) :
    after (hostOps0 (F := F)) W (Proc.devRef .tc main_arg4) = W (Proc.devRef .tc main_arg4) := by
  after_results
theorem flatten_keeps_arg5 (W : Valuation τ sig (Elt F)) :
    after (hostOps0 (F := F)) W (Proc.devRef .tc main_arg5) = W (Proc.devRef .tc main_arg5) := by
  after_results
theorem flatten_keeps_arg6 (W : Valuation τ sig (Elt F)) :
    after (hostOps0 (F := F)) W (Proc.devRef .tc main_arg6) = W (Proc.devRef .tc main_arg6) := by
  after_results

set_option maxHeartbeats 4000000 in
/-- The middle stretch leaves, in the multiply region's gate array, the gate of the pooled array and the parameters,
    as a [32, 512, 1] column. -/
theorem gate_stretch (W : Valuation τ sig (Elt F)) :
    after (hostOps1 (F := F)) W (Proc.devRef .tc main_call0_v36)
      = shapeCast S32x512x1
          (Cert.Gate.gate (W (Proc.devRef .tc main_call0_v1)) (W (Proc.devRef .tc main_arg1)) (W (Proc.devRef .tc main_arg2))
            (W (Proc.devRef .tc main_arg3)) (W (Proc.devRef .tc main_arg4)) (W (Proc.devRef .tc main_arg5))
            (W (Proc.devRef .tc main_arg6)))
          shapeCasts_S32x512_S32x512x1 := by
  after_results_simp
  simp only [Cert.Lib.Outlined.ofBuf_toBuf]
  rfl

set_option maxHeartbeats 1000000 in
/-- The middle stretch does not write the flattened input. -/
theorem gate_stretch_keeps_input (W : Valuation τ sig (Elt F)) :
    after (hostOps1 (F := F)) W (Proc.devRef .tc main_call0_v0) = W (Proc.devRef .tc main_call0_v0) := by
  after_results_simp

/-- The last stretch leaves the product read as [32, 512, 64, 64] in the result buffer. -/
theorem unflatten_stretch (W : Valuation τ sig (Elt F)) :
    after (hostOps2 (F := F)) W (Proc.devRef .tc main_v0)
      = shapeCast S32x512x64x64 (W (Proc.devRef .tc main_call0_v37)) shapeCasts_S32x512x4096_S32x512x64x64 := by
  after_results
  rfl

end Cert.KernelIdeal.HostValue

end
-- ==== Proof.LibStackLayout.lean ====
/-
  Stacks of matrices read at an index given by coordinates: the keepdims layouts of a reduction along the last or the
  middle axis of an `[m, a, b]` array, for any extents.

  • a trailing or a middle unit axis added by a shape cast: `[m, a] → [m, a, 1]` (`shapeCast_ma_ma1_apply`) and
    `[m, a] → [m, 1, a]` (`shapeCast_ma_m1a_apply`);
  • a column `[m, a, 1]` or a row `[m, 1, b]` of each matrix broadcast over the matrix `[m, a, b]`
    (`broadcastTo_ma1_mab_apply`, `broadcastTo_m1b_mab_apply`);
  • at the ideal values, the sum of an `[m, a, b]` array along its last axis (`sum_last_apply`) and along its middle
    axis (`sum_mid_apply`) as plain `Fin`-indexed sums; `sum_last_f32_apply` / `sum_mid_f32_apply` are these at f32 from the
    zero pattern, with the accumulator's side condition spelt as a printed program spells it.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.StackLayout

open Idealize.ShloMosaic Idealize.ShloMosaic.ValueIdx

variable {α : Type}

/-- An `[m, a]` array cast to `[m, a, 1]` reads, at `(k, i, u)`, the operand at `(k, i)`. -/
theorem shapeCast_ma_ma1_apply {m a : ℕ} (x : (⟨2, ![m, a]⟩ : Shape).Idx → α)
    (h : (⟨2, ![m, a]⟩ : Shape).ShapeCasts ⟨3, ![m, a, 1]⟩) (k : Fin m) (i : Fin a) (u : Fin 1) :
    shapeCast ⟨3, ![m, a, 1]⟩ x h (ix3 k i u) = x (ix2 k i) :=
  shapeCast_apply x h _ _ (by
    have hu : u.val = 0 := by omega
    rw [Shape.rowMajor_val_three, Shape.rowMajor_val_two]
    show k.val * a + i.val = (k.val * a + i.val) * 1 + u.val
    rw [hu, Nat.mul_one, Nat.add_zero])

/-- An `[m, a]` array cast to `[m, 1, a]` reads, at `(k, u, i)`, the operand at `(k, i)`. -/
theorem shapeCast_ma_m1a_apply {m a : ℕ} (x : (⟨2, ![m, a]⟩ : Shape).Idx → α)
    (h : (⟨2, ![m, a]⟩ : Shape).ShapeCasts ⟨3, ![m, 1, a]⟩) (k : Fin m) (u : Fin 1) (i : Fin a) :
    shapeCast ⟨3, ![m, 1, a]⟩ x h (ix3 k u i) = x (ix2 k i) :=
  shapeCast_apply x h _ _ (by
    have hu : u.val = 0 := by omega
    rw [Shape.rowMajor_val_three, Shape.rowMajor_val_two]
    show k.val * a + i.val = (k.val * 1 + u.val) * a + i.val
    rw [hu, Nat.mul_one, Nat.add_zero])

/-- A column of each matrix, `[m, a, 1]`, broadcast to `[m, a, b]` reads, at `(k, i, j)`, the column's entry `(k, i)`. -/
theorem broadcastTo_ma1_mab_apply {m a b : ℕ} (v : (⟨3, ![m, a, 1]⟩ : Shape).Idx → α)
    (h : (⟨3, ![m, a, 1]⟩ : Shape).Broadcasts ⟨3, ![m, a, b]⟩) (k : Fin m) (i : Fin a) (j : Fin b) :
    broadcastTo ⟨3, ![m, a, b]⟩ v h (ix3 k i j) = v (ix3 k i (0 : Fin 1)) := by
  refine broadcastTo_apply v h (ix3 k i j) (ix3 k i (0 : Fin 1)) fun ax => ?_
  match ax with
  | ⟨0, _⟩ =>
    show k.val = if m = 1 then 0 else k.val
    split
    · have := k.isLt; omega
    · rfl
  | ⟨1, _⟩ =>
    show i.val = if a = 1 then 0 else i.val
    split
    · have := i.isLt; omega
    · rfl
  | ⟨2, _⟩ => rfl

/-- A row of each matrix, `[m, 1, b]`, broadcast to `[m, a, b]` reads, at `(k, i, j)`, the row's entry `(k, j)`. -/
theorem broadcastTo_m1b_mab_apply {m a b : ℕ} (v : (⟨3, ![m, 1, b]⟩ : Shape).Idx → α)
    (h : (⟨3, ![m, 1, b]⟩ : Shape).Broadcasts ⟨3, ![m, a, b]⟩) (k : Fin m) (i : Fin a) (j : Fin b) :
    broadcastTo ⟨3, ![m, a, b]⟩ v h (ix3 k i j) = v (ix3 k (0 : Fin 1) j) := by
  refine broadcastTo_apply v h (ix3 k i j) (ix3 k (0 : Fin 1) j) fun ax => ?_
  match ax with
  | ⟨0, _⟩ =>
    show k.val = if m = 1 then 0 else k.val
    split
    · have := k.isLt; omega
    · rfl
  | ⟨1, _⟩ => rfl
  | ⟨2, _⟩ =>
    show j.val = if b = 1 then 0 else j.val
    split
    · have := j.isLt; omega
    · rfl

/-- At the ideal values the float sum of an `[m, a, b]` array along its LAST axis, from the neutral accumulator, is at
    `(k, i)` the plain sum over `j` of the entries `(k, i, j)`. -/
theorem sum_last_apply {m a b : ℕ} {φ : FTy} (src : FVec Ideal ⟨3, ![m, a, b]⟩ φ) (acc : BitVec φ.bits)
    (h : (⟨3, ![m, a, b]⟩ : Shape).Reduces [2] ⟨2, ![m, a]⟩) (hφ : FKind.Formats φ) (hacc : acc = FKind.add.neutral φ hφ)
    (k : Fin m) (i : Fin a) :
    multiReduction .add [2] ⟨2, ![m, a]⟩ src acc h hφ hacc (ix2 k i) = ∑ j : Fin b, src (ix3 k i j) := by
  refine (Ideal.multiReduction_add_single src acc h hφ hacc (ix2 k i)).trans ?_
  show ∑ j : Fin b, src (h.lift (ix2 k i) j) = _
  refine Finset.sum_congr rfl fun j _ => congrArg src (funext fun ax => ?_)
  match ax with
  | ⟨0, _⟩ => exact Fin.ext rfl
  | ⟨1, _⟩ => exact Fin.ext rfl
  | ⟨2, _⟩ => exact Fin.ext rfl

/-- At the ideal values the float sum of an `[m, a, b]` array along its MIDDLE axis, from the neutral accumulator, is at
    `(k, j)` the plain sum over `i` of the entries `(k, i, j)`. -/
theorem sum_mid_apply {m a b : ℕ} {φ : FTy} (src : FVec Ideal ⟨3, ![m, a, b]⟩ φ) (acc : BitVec φ.bits)
    (h : (⟨3, ![m, a, b]⟩ : Shape).Reduces [1] ⟨2, ![m, b]⟩) (hφ : FKind.Formats φ) (hacc : acc = FKind.add.neutral φ hφ)
    (k : Fin m) (j : Fin b) :
    multiReduction .add [1] ⟨2, ![m, b]⟩ src acc h hφ hacc (ix2 k j) = ∑ i : Fin a, src (ix3 k i j) := by
  refine (Ideal.multiReduction_add_single src acc h hφ hacc (ix2 k j)).trans ?_
  show ∑ i : Fin a, src (h.lift (ix2 k j) i) = _
  refine Finset.sum_congr rfl fun i _ => congrArg src (funext fun ax => ?_)
  match ax with
  | ⟨0, _⟩ => exact Fin.ext rfl
  | ⟨1, _⟩ => exact Fin.ext rfl
  | ⟨2, _⟩ => exact Fin.ext rfl

/-- `sum_last_apply` at f32 from the zero pattern, its side condition spelt as an equation between patterns. -/
theorem sum_last_f32_apply {m a b : ℕ} (src : FVec Ideal ⟨3, ![m, a, b]⟩ .f32)
    (h : (⟨3, ![m, a, b]⟩ : Shape).Reduces [2] ⟨2, ![m, a]⟩) (hφ : FKind.Formats .f32)
    (hacc : (0x00000000#32 : BitVec 32) = 0x00000000#32) (k : Fin m) (i : Fin a) :
    multiReduction .add [2] ⟨2, ![m, a]⟩ src 0x00000000#32 h hφ hacc (ix2 k i) = ∑ j : Fin b, src (ix3 k i j) :=
  sum_last_apply src 0x00000000#32 h hφ hacc k i

/-- `sum_mid_apply` at f32 from the zero pattern, its side condition spelt as an equation between patterns. -/
theorem sum_mid_f32_apply {m a b : ℕ} (src : FVec Ideal ⟨3, ![m, a, b]⟩ .f32)
    (h : (⟨3, ![m, a, b]⟩ : Shape).Reduces [1] ⟨2, ![m, b]⟩) (hφ : FKind.Formats .f32)
    (hacc : (0x00000000#32 : BitVec 32) = 0x00000000#32) (k : Fin m) (j : Fin b) :
    multiReduction .add [1] ⟨2, ![m, b]⟩ src 0x00000000#32 h hφ hacc (ix2 k j) = ∑ i : Fin a, src (ix3 k i j) :=
  sum_mid_apply src 0x00000000#32 h hφ hacc k j

end Cert.StackLayout

end
-- ==== Proof.PoolBlocks.lean ====
/-
  The pooling region: the array it leaves is the row means of the array it reads.

  The region walks a 4 × 4 grid. At point (i, j) it reads the block of 8 batches × 128 channels × all 4096 positions of
  the flattened input — batches 8 i … 8 i + 7, channels 128 j … 128 j + 127 —, sums each of the block's 1024 rows
  over its 4096 positions, multiplies by the float 2⁻¹² and writes the 8 × 128 block of results at the same batches and
  channels of the [32, 512] output. The sixteen output blocks tile the output, and entry (b, c) of a block depends
  on row (b, c) of the input alone; so the output array is, entry by entry, the function `rowMeans` of the input
  array: the sum of row (b, c) times 2⁻¹².
-/
import proofs.«110130_j78658031059208_2_alg».proof.Proof.Gen.KernelIdeal.Frame
import proofs.«110130_j78658031059208_2_alg».proof.Proof.LibStackLayout
import Idealize.ShloMosaic.Lib.Pipeline.Value
import Idealize.ShloMosaic.Lib.ValueIdx

set_option maxRecDepth 16384

noncomputable section

open scoped BigOperators

namespace Cert.KernelIdeal.PoolValue

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

/-- Row (b, c) of a [32, 512, 4096] array summed and scaled by 2⁻¹². -/
def rowMeans (xf : S32x512x4096.Idx → EReal) : S32x512.Idx → EReal :=
  fun j => (∑ k : Fin 4096, xf (ix3 (j 0) (j 1) k)) * Ideal.ofBits .f32 0x39800000#32

theorem rowMeans_apply (xf : S32x512x4096.Idx → EReal) (p : Fin 32) (q : Fin 512) :
    rowMeans xf (ix2 p q) = (∑ k : Fin 4096, xf (ix3 p q k)) * Ideal.ofBits .f32 0x39800000#32 := rfl

/-- The body's stored value at entry (p, q) of its block: the sum of row (p, q) of the loaded block times 2⁻¹². -/
theorem payload_apply (x0 : Vec Ideal S8x128x4096 .f32) (p : Fin 8) (q : Fin 128) :
    k0_pay1 x0 (ix2 p q) = (∑ k : Fin 4096, x0 (ix3 p q k)) * Ideal.ofBits .f32 0x39800000#32 := by
  unfold k0_pay1
  show (multiReduction .add [2] S8x128 (shapeCast S8x128x4096 x0 shapeCasts_S8x128x4096_S8x128x4096) 0x00000000#32
      reduces_S8x128x4096_S8x128 (.inl rfl) rfl (ix2 p q)) * Ideal.ofBits .f32 0x39800000#32 = _
  rw [shapeCast_self]
  exact congrArg (· * Ideal.ofBits .f32 0x39800000#32) (Cert.StackLayout.sum_last_f32_apply x0 _ _ _ p q)

theorem off2 : (![0, 0] : Fin 2 → Nat) = fun _ => 0 := funext fun a => by fin_cases a <;> rfl
theorem off3 : (![0, 0, 0] : Fin 3 → Nat) = fun _ => 0 := funext fun a => by fin_cases a <;> rfl

/-- The printed index maps over the grid: the input block sits at the output block's batches and channels and at
    position 0 of the long axis; the block numbers stay below 4. -/
theorem index_facts : ∀ t : Fin cfg0.N, win0_0.index t (0 : Fin 3) = win0_1.index t (0 : Fin 2)
    ∧ win0_0.index t (1 : Fin 3) = win0_1.index t (1 : Fin 2)
    ∧ win0_0.index t (2 : Fin 3) = 0
    ∧ win0_1.index t (0 : Fin 2) ≤ 3 ∧ win0_1.index t (1 : Fin 2) ≤ 3 :=
  (by decide +kernel : ∀ t : Fin grid0.N, _)

/-- Every output block is some grid point's. -/
theorem index_onto : ∀ (q0 : Fin 4) (q1 : Fin 4), ∃ t : Fin cfg0.N, win0_1.index t = ![q0.val, q1.val] :=
  (by decide +kernel : ∀ (q0 : Fin 4) (q1 : Fin 4), ∃ t : Fin grid0.N, win0_1.index t = ![q0.val, q1.val])

variable (V : (c : Dev nD) → (b : Ref sig .tc) → Buf (Elt Ideal) ((c : Thread nD τ).loc b))

/-- What grid point `t` writes back is block `t` of the row means of the input array as the region finds it. -/
theorem flushed_eq (c : Dev nD) (t : Fin cfg0.N) :
    (dat0 V c).flushed 1 t = ((cfg0.win 1).blk t).view.read (Elt Ideal) (rowMeans (V c main_call0_v0)) := by
  show (cfg0.win 1).cut (grid0.coords t) ((dat0 V c).after 1 t) = _
  rw [after0_1]
  unfold out0_1
  rw [View.canon_unit_zero off2]
  simp only [View.ld_unit_zero (S := S8x128x4096) off3]
  obtain ⟨e0, e1, e2, -, -⟩ := index_facts t
  funext j
  obtain ⟨p, q, rfl⟩ : ∃ (p : Fin 8) (q : Fin 128), j = ix2 p q := ⟨j 0, j 1, eq_ix2 j⟩
  refine (payload_apply (iblk0 V c 0 t) p q).trans ?_
  show _ = rowMeans (V c main_call0_v0) (((cfg0.win 1).blk t).view.emb (ix2 p q))
  unfold rowMeans
  refine congrArg (· * Ideal.ofBits .f32 0x39800000#32) (Finset.sum_congr rfl fun k _ => ?_)
  show V c main_call0_v0 (((cfg0.win 0).blk t).view.emb (ix3 p q k)) = V c main_call0_v0 _
  refine congrArg (V c main_call0_v0) (funext fun a => Fin.ext ?_)
  match a with
  | ⟨0, _⟩ =>
    show win0_0.index t (0 : Fin 3) * 8 + 1 * p.val = win0_1.index t (0 : Fin 2) * 8 + 1 * p.val
    omega
  | ⟨1, _⟩ =>
    show win0_0.index t (1 : Fin 3) * 128 + 1 * q.val = win0_1.index t (1 : Fin 2) * 128 + 1 * q.val
    omega
  | ⟨2, _⟩ =>
    show win0_0.index t (2 : Fin 3) * 4096 + 1 * k.val = k.val
    omega

/-- An index of the output is in point `t`'s block iff each coordinate is in the block's range. -/
theorem mem_block (t : Fin cfg0.N) (i : S32x512.Idx) :
    i ∈ ((cfg0.win 1).blk t).view.set ↔ ∀ a : Fin 2, win0_1.index t a * S8x128.size a ≤ (i a).val
      ∧ (i a).val < win0_1.index t a * S8x128.size a + S8x128.size a := by
  show i ∈ ((View.whole main_call0_v1).slice (win0_1.rect t)).set ↔ _
  rw [View.set_slice_whole, Rect.mem_set_unit]
  exact Iff.rfl

/-- Every entry of the output is in some point's block: batch b in block b / 8, channel c in block c / 128. -/
theorem cover (i : S32x512.Idx) : ∃ t : Fin cfg0.N, (cfg0.win 1).flush t = true ∧ i ∈ ((cfg0.win 1).blk t).view.set := by
  have hi0 : (i 0).val < 32 := (i 0).isLt
  have hi1 : (i 1).val < 512 := (i 1).isLt
  obtain ⟨t, ht⟩ := index_onto ⟨(i 0).val / 8, by omega⟩ ⟨(i 1).val / 128, by omega⟩
  have q0 : win0_1.index t (0 : Fin 2) = (i 0).val / 8 := congrFun ht 0
  have q1 : win0_1.index t (1 : Fin 2) = (i 1).val / 128 := congrFun ht 1
  refine ⟨t, flush0_1 t, ?_⟩
  rw [mem_block]
  intro a
  match a with
  | ⟨0, _⟩ =>
    show win0_1.index t (0 : Fin 2) * 8 ≤ (i 0).val ∧ (i 0).val < win0_1.index t (0 : Fin 2) * 8 + 8
    omega
  | ⟨1, _⟩ =>
    show win0_1.index t (1 : Fin 2) * 128 ≤ (i 1).val ∧ (i 1).val < win0_1.index t (1 : Fin 2) * 128 + 128
    omega

/-- THE POOLED ARRAY after the region: the row means of the input array as the region found it. -/
theorem pooled (c : Dev nD) : (dat0 V c).arrAt 1 cfg0.N = rowMeans (V c main_call0_v0) :=
  (dat0 V c).arrAt_eq_of_cover 1 (rowMeans (V c main_call0_v0)) (fun t _ => flushed_eq V c t) cover

/-- The input array is not written by the region. -/
theorem input_kept (c : Dev nD) : (dat0 V c).arrAt 0 cfg0.N = V c main_call0_v0 :=
  ((dat0 V c).arrAt_in 0 rfl cfg0.N).trans (A_eq0 V c 0)

end Cert.KernelIdeal.PoolValue

end
-- ==== Proof.MulBlocks.lean ====
/-
  The multiply region: the array it leaves is the flattened input scaled, row by row, by the gate.

  The region walks a 4 × 8 grid. At point (i, j) it reads the block of 8 batches × 64 channels × all 4096 positions of
  the flattened input and the 8 × 64 × 1 block of the gate column at the same batches and channels, spreads each gate
  entry along its row's 4096 positions, multiplies, and writes the 8 × 64 × 4096 block of products at the same place of
  the output. The thirty-two output blocks tile the output, and entry (b, c, k) of a block is the input's entry
  (b, c, k) times the gate's entry (b, c, 0); so the output array is, entry by entry, the function `scaled` of the two
  arrays the region reads.
-/
import proofs.«110130_j78658031059208_2_alg».proof.Proof.Gen.KernelIdeal.Frame
import proofs.«110130_j78658031059208_2_alg».proof.Proof.LibStackLayout
import Idealize.ShloMosaic.Lib.Pipeline.Value
import Idealize.ShloMosaic.Lib.ValueIdx

set_option maxRecDepth 16384

noncomputable section

namespace Cert.KernelIdeal.MulValue

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

/-- Entry (b, c, k) of a [32, 512, 4096] array times entry (b, c, 0) of a [32, 512, 1] column. -/
def scaled (xf : S32x512x4096.Idx → EReal) (g : S32x512x1.Idx → EReal) : S32x512x4096.Idx → EReal :=
  fun i => xf i * g (ix3 (i 0) (i 1) (0 : Fin 1))

theorem scaled_apply (xf : S32x512x4096.Idx → EReal) (g : S32x512x1.Idx → EReal) (p : Fin 32) (q : Fin 512) (k : Fin 4096) :
    scaled xf g (ix3 p q k) = xf (ix3 p q k) * g (ix3 p q (0 : Fin 1)) := rfl

/-- The body's stored value at entry (p, q, r) of its block: the loaded input entry times the loaded gate entry of
    its row. -/
theorem payload_apply (x0 : Vec Ideal S8x64x4096 .f32) (x1 : Vec Ideal S8x64x1 .f32) (p : Fin 8) (q : Fin 64) (r : Fin 4096) :
    k1_pay1 x0 x1 (ix3 p q r) = x0 (ix3 p q r) * x1 (ix3 p q (0 : Fin 1)) := by
  unfold k1_pay1
  show (shapeCast S8x64x4096 x0 shapeCasts_S8x64x4096_S8x64x4096) (ix3 p q r)
      * (broadcastTo S8x64x4096 (shapeCast S8x64x1 (shapeCast S8x64x1 x1 shapeCasts_S8x64x1_S8x64x1) shapeCasts_S8x64x1_S8x64x1)
          broadcasts_S8x64x1_S8x64x4096) (ix3 p q r) = _
  simp only [shapeCast_self]
  exact congrArg (x0 (ix3 p q r) * ·) (Cert.StackLayout.broadcastTo_ma1_mab_apply x1 _ p q r)

theorem off3 : (![0, 0, 0] : Fin 3 → Nat) = fun _ => 0 := funext fun a => by fin_cases a <;> rfl

/-- The printed index maps over the grid: both input blocks sit at the output block's batches and channels, all three
    at position 0 of the last axis; the block numbers stay below 4 and 8. -/
theorem index_facts : ∀ t : Fin cfg1.N, win1_0.index t (0 : Fin 3) = win1_2.index t (0 : Fin 3)
    ∧ win1_0.index t (1 : Fin 3) = win1_2.index t (1 : Fin 3)
    ∧ win1_0.index t (2 : Fin 3) = win1_2.index t (2 : Fin 3)
    ∧ win1_1.index t (0 : Fin 3) = win1_2.index t (0 : Fin 3)
    ∧ win1_1.index t (1 : Fin 3) = win1_2.index t (1 : Fin 3)
    ∧ win1_1.index t (2 : Fin 3) = 0
    ∧ win1_2.index t (2 : Fin 3) = 0
    ∧ win1_2.index t (0 : Fin 3) ≤ 3 ∧ win1_2.index t (1 : Fin 3) ≤ 7 :=
  (by decide +kernel : ∀ t : Fin grid1.N, _)

/-- Every output block is some grid point's. -/
theorem index_onto : ∀ (q0 : Fin 4) (q1 : Fin 8), ∃ t : Fin cfg1.N, win1_2.index t = ![q0.val, q1.val, 0] :=
  (by decide +kernel : ∀ (q0 : Fin 4) (q1 : Fin 8), ∃ t : Fin grid1.N, win1_2.index t = ![q0.val, q1.val, 0])

variable (V : (c : Dev nD) → (b : Ref sig .tc) → Buf (Elt Ideal) ((c : Thread nD τ).loc b))

/-- What grid point `t` writes back is block `t` of the scaled input, of the two arrays as the region finds them. -/
theorem flushed_eq (c : Dev nD) (t : Fin cfg1.N) :
    (dat1 V c).flushed 2 t
      = ((cfg1.win 2).blk t).view.read (Elt Ideal) (scaled (V c main_call0_v0) (V c main_call0_v36)) := by
  show (cfg1.win 2).cut (grid1.coords t) ((dat1 V c).after 2 t) = _
  rw [after1_2]
  unfold out1_2
  rw [View.canon_unit_zero off3]
  simp only [View.ld_unit_zero (S := S8x64x4096) off3, View.ld_unit_zero (S := S8x64x1) off3]
  obtain ⟨e0, e1, e2, e3, e4, e5, e6, -, -⟩ := index_facts t
  funext j
  obtain ⟨p, q, r, rfl⟩ : ∃ (p : Fin 8) (q : Fin 64) (r : Fin 4096), j = ix3 p q r := ⟨j 0, j 1, j 2, eq_ix3 j⟩
  have h0 : ((cfg1.win 0).blk t).view.emb (ix3 p q r) = ((cfg1.win 2).blk t).view.emb (ix3 p q r) := by
    funext a; apply Fin.ext
    match a with
    | ⟨0, _⟩ =>
      show win1_0.index t (0 : Fin 3) * 8 + 1 * p.val = win1_2.index t (0 : Fin 3) * 8 + 1 * p.val
      omega
    | ⟨1, _⟩ =>
      show win1_0.index t (1 : Fin 3) * 64 + 1 * q.val = win1_2.index t (1 : Fin 3) * 64 + 1 * q.val
      omega
    | ⟨2, _⟩ =>
      show win1_0.index t (2 : Fin 3) * 4096 + 1 * r.val = win1_2.index t (2 : Fin 3) * 4096 + 1 * r.val
      omega
  have h1 : ((cfg1.win 1).blk t).view.emb (ix3 p q (0 : Fin 1))
      = ix3 ((((cfg1.win 2).blk t).view.emb (ix3 p q r)) 0) ((((cfg1.win 2).blk t).view.emb (ix3 p q r)) 1) (0 : Fin 1) := by
    funext a; apply Fin.ext
    match a with
    | ⟨0, _⟩ =>
      show win1_1.index t (0 : Fin 3) * 8 + 1 * p.val = win1_2.index t (0 : Fin 3) * 8 + 1 * p.val
      omega
    | ⟨1, _⟩ =>
      show win1_1.index t (1 : Fin 3) * 64 + 1 * q.val = win1_2.index t (1 : Fin 3) * 64 + 1 * q.val
      omega
    | ⟨2, _⟩ =>
      show win1_1.index t (2 : Fin 3) * 1 + 1 * 0 = 0
      omega
  -- each loaded entry is the array's entry at the place the output block's index names
  have hx : iblk1 V c 0 t (ix3 p q r) = V c main_call0_v0 (((cfg1.win 2).blk t).view.emb (ix3 p q r)) :=
    congrArg (V c main_call0_v0) h0
  have hg : iblk1 V c 1 t (ix3 p q (0 : Fin 1))
      = V c main_call0_v36 (ix3 ((((cfg1.win 2).blk t).view.emb (ix3 p q r)) 0)
          ((((cfg1.win 2).blk t).view.emb (ix3 p q r)) 1) (0 : Fin 1)) :=
    congrArg (V c main_call0_v36) h1
  refine (payload_apply (iblk1 V c 0 t) (iblk1 V c 1 t) p q r).trans ?_
  rw [hx, hg]
  rfl

/-- An index of the output is in point `t`'s block iff each coordinate is in the block's range. -/
theorem mem_block (t : Fin cfg1.N) (i : S32x512x4096.Idx) :
    i ∈ ((cfg1.win 2).blk t).view.set ↔ ∀ a : Fin 3, win1_2.index t a * S8x64x4096.size a ≤ (i a).val
      ∧ (i a).val < win1_2.index t a * S8x64x4096.size a + S8x64x4096.size a := by
  show i ∈ ((View.whole main_call0_v37).slice (win1_2.rect t)).set ↔ _
  rw [View.set_slice_whole, Rect.mem_set_unit]
  exact Iff.rfl

/-- Every entry of the output is in some point's block: batch b in block b / 8, channel c in block c / 64. -/
theorem cover (i : S32x512x4096.Idx) :
    ∃ t : Fin cfg1.N, (cfg1.win 2).flush t = true ∧ i ∈ ((cfg1.win 2).blk t).view.set := by
  have hi0 : (i 0).val < 32 := (i 0).isLt
  have hi1 : (i 1).val < 512 := (i 1).isLt
  have hi2 : (i 2).val < 4096 := (i 2).isLt
  obtain ⟨t, ht⟩ := index_onto ⟨(i 0).val / 8, by omega⟩ ⟨(i 1).val / 64, by omega⟩
  have q0 : win1_2.index t (0 : Fin 3) = (i 0).val / 8 := congrFun ht 0
  have q1 : win1_2.index t (1 : Fin 3) = (i 1).val / 64 := congrFun ht 1
  have q2 : win1_2.index t (2 : Fin 3) = 0 := congrFun ht 2
  refine ⟨t, flush1_2 t, ?_⟩
  rw [mem_block]
  intro a
  match a with
  | ⟨0, _⟩ =>
    show win1_2.index t (0 : Fin 3) * 8 ≤ (i 0).val ∧ (i 0).val < win1_2.index t (0 : Fin 3) * 8 + 8
    omega
  | ⟨1, _⟩ =>
    show win1_2.index t (1 : Fin 3) * 64 ≤ (i 1).val ∧ (i 1).val < win1_2.index t (1 : Fin 3) * 64 + 64
    omega
  | ⟨2, _⟩ =>
    show win1_2.index t (2 : Fin 3) * 4096 ≤ (i 2).val ∧ (i 2).val < win1_2.index t (2 : Fin 3) * 4096 + 4096
    omega

/-- THE PRODUCT ARRAY after the region: the input array scaled by the gate column, both as the region found them. -/
theorem product (c : Dev nD) :
    (dat1 V c).arrAt 2 cfg1.N = scaled (V c main_call0_v0) (V c main_call0_v36) :=
  (dat1 V c).arrAt_eq_of_cover 2 (scaled (V c main_call0_v0) (V c main_call0_v36)) (fun t _ => flushed_eq V c t) cover

end Cert.KernelIdeal.MulValue

end
-- ==== Proof.PoolLaw.lean ====
/-
  The mathematics of the average over the two trailing axes, on the extended reals.

  An array x of shape [32, 512, 64, 64] is averaged over its last two axes in two ways. One reads it as an array of shape
  [32, 512, 4096] — position k of the long axis is row k / 64 and column k % 64 of the 64 × 64 plane —, sums each row of
  4096 entries and multiplies by the float 2⁻¹². The other sums, from zero, over every index of x whose first two
  coordinates are (p, q), and divides by the float 4096. Both are the same extended real for EVERY x, infinite
  entries included: a finite sum only needs its terms listed once each in either order, and dividing by 4096 is
  multiplying by its reciprocal on the whole extended line.
-/
import Idealize.ShloMosaic.PureOps.Ideal.Laws
import Idealize.ShloMosaic.Lib.ValueIdx
import Idealize.ShloMosaic.Lib.Pipeline.Value

noncomputable section

open scoped BigOperators

namespace Cert.Pool

open Idealize.ShloMosaic Idealize.ShloMosaic.ValueIdx

/-- The input's shape and the same entries with the two trailing axes run together. -/
abbrev Planes : Shape := ⟨4, ![32, 512, 64, 64]⟩
abbrev Rows : Shape := ⟨3, ![32, 512, 4096]⟩
abbrev Cells : Shape := ⟨2, ![32, 512]⟩

/-- The float word 0x45800000 is the real 4096. -/
theorem ofBits_4096 : Ideal.ofBits .f32 0x45800000#32 = ((4096 : ℝ) : EReal) := by
  simp [Ideal.ofBits, Ideal.ieee, -EReal.coe_mul]; norm_num

/-- The float word 0x39800000 is the real 1/4096. -/
theorem ofBits_inv4096 : Ideal.ofBits .f32 0x39800000#32 = ((1 / 4096 : ℝ) : EReal) := by
  simp [Ideal.ofBits, Ideal.ieee, -EReal.coe_mul]; norm_num

/-- Dividing by 4096 is multiplying by 1/4096, at every extended real. -/
theorem div_4096 (y : EReal) :
    Ideal.div y (Ideal.ofBits .f32 0x45800000#32) = y * Ideal.ofBits .f32 0x39800000#32 := by
  rw [ofBits_4096, ofBits_inv4096]; exact Ideal.div_coe (by norm_num) y

/-- Entry k of row (p, q) of the flattened array sits at row k / 64, column k % 64 of plane (p, q). -/
def cell (p : Fin 32) (q : Fin 512) (k : Fin 4096) : Planes.Idx :=
  ix4 p q (⟨k.val / 64, by omega⟩ : Fin 64) (⟨k.val % 64, by omega⟩ : Fin 64)

theorem idx_lt2 (i : Planes.Idx) : (i 2).val < 64 := (i 2).isLt
theorem idx_lt3 (i : Planes.Idx) : (i 3).val < 64 := (i 3).isLt

/-- Where an index of x sits on the long axis of its row. -/
def flat (i : Planes.Idx) : Fin 4096 :=
  ⟨(i 2).val * 64 + (i 3).val, by have := idx_lt2 i; have := idx_lt3 i; omega⟩

theorem flat_cell (p : Fin 32) (q : Fin 512) (k : Fin 4096) : flat (cell p q k) = k := by
  apply Fin.ext
  show k.val / 64 * 64 + k.val % 64 = k.val
  omega

/-- The first two coordinates of an index of x survive the reduction over axes 2 and 3. -/
theorem drop_val0 (h : Planes.ReducesTo [2, 3] Cells) (i : Planes.Idx) : (h.drop i 0).val = (i 0).val :=
  h.drop_apply_val_of_eq i 0 0
theorem drop_val1 (h : Planes.ReducesTo [2, 3] Cells) (i : Planes.Idx) : (h.drop i 1).val = (i 1).val :=
  h.drop_apply_val_of_eq i 1 1

theorem drop_cell (h : Planes.ReducesTo [2, 3] Cells) (p : Fin 32) (q : Fin 512) (k : Fin 4096) :
    h.drop (cell p q k) = ix2 p q := by
  funext b
  apply Fin.ext
  match b with
  | ⟨0, _⟩ => exact drop_val0 h _
  | ⟨1, _⟩ => exact drop_val1 h _

theorem cell_flat (h : Planes.ReducesTo [2, 3] Cells) (p : Fin 32) (q : Fin 512) (i : Planes.Idx)
    (hi : h.drop i = ix2 p q) : cell p q (flat i) = i := by
  have h0 : (i 0).val = p.val := (drop_val0 h i).symm.trans (congrArg (fun j : Cells.Idx => (j 0).val) hi)
  have h1 : (i 1).val = q.val := (drop_val1 h i).symm.trans (congrArg (fun j : Cells.Idx => (j 1).val) hi)
  have h2 := idx_lt2 i
  have h3 := idx_lt3 i
  funext a
  apply Fin.ext
  match a with
  | ⟨0, _⟩ => exact h0.symm
  | ⟨1, _⟩ => exact h1.symm
  | ⟨2, _⟩ =>
    show ((i 2).val * 64 + (i 3).val) / 64 = (i 2).val
    omega
  | ⟨3, _⟩ =>
    show ((i 2).val * 64 + (i 3).val) % 64 = (i 3).val
    omega

/-- The sum of x over the indices whose first two coordinates are (p, q) is the sum over the 4096 cells of plane (p, q). -/
theorem sum_plane (h : Planes.ReducesTo [2, 3] Cells) (x : Planes.Idx → EReal) (p : Fin 32) (q : Fin 512) :
    ∑ i ∈ Finset.univ.filter (fun i => h.drop i = ix2 p q), x i = ∑ k : Fin 4096, x (cell p q k) := by
  symm
  refine Finset.sum_nbij' (fun k => cell p q k) (fun i => flat i) ?_ ?_ ?_ ?_ ?_
  · intro k _
    exact Finset.mem_filter.mpr ⟨Finset.mem_univ _, drop_cell h p q k⟩
  · intro i _
    exact Finset.mem_univ _
  · intro k _
    exact flat_cell p q k
  · intro i hi
    exact cell_flat h p q i (Finset.mem_filter.mp hi).2
  · intro k _
    rfl

/-- THE LAW. The sum from `init` over the trailing axes divided by 4096 is (init + the sum over the 4096 cells) times 2⁻¹². -/
theorem mean_eq (h : Planes.ReducesTo [2, 3] Cells) (x : Planes.Idx → EReal) (init : EReal) (p : Fin 32) (q : Fin 512) :
    Ideal.div (Ideal.hostReduceAdd h x init (ix2 p q)) (Ideal.ofBits .f32 0x45800000#32)
      = (init + ∑ k : Fin 4096, x (cell p q k)) * Ideal.ofBits .f32 0x39800000#32 := by
  rw [div_4096]
  unfold Ideal.hostReduceAdd
  rw [sum_plane]

/-- The flattened array read at (p, q, k) is x at that cell. -/
theorem flatten_apply {α : Type} (x : Planes.Idx → α) (h : Planes.ShapeCasts Rows) (p : Fin 32) (q : Fin 512) (k : Fin 4096) :
    shapeCast Rows x h (ix3 p q k) = x (cell p q k) :=
  shapeCast_apply x h _ _ (by
    rw [Shape.rowMajor_val_four, Shape.rowMajor_val_three]
    show ((p.val * 512 + q.val) * 64 + k.val / 64) * 64 + k.val % 64 = (p.val * 512 + q.val) * 4096 + k.val
    omega)

/-- A [32, 512, 4096] array read back as planes: entry (p, q, r, s) is entry 64 r + s of row (p, q). -/
theorem unflatten_apply {α : Type} (y : Rows.Idx → α) (h : Rows.ShapeCasts Planes) (p : Fin 32) (q : Fin 512) (r s : Fin 64) :
    shapeCast Planes y h (ix4 p q r s) = y (ix3 p q (⟨r.val * 64 + s.val, by omega⟩ : Fin 4096)) :=
  shapeCast_apply y h _ _ (by
    rw [Shape.rowMajor_val_four, Shape.rowMajor_val_three]
    show (p.val * 512 + q.val) * 4096 + (r.val * 64 + s.val) = ((p.val * 512 + q.val) * 64 + r.val) * 64 + s.val
    omega)

/-- The cell of position 64 r + s is (r, s). -/
theorem cell_pos (p : Fin 32) (q : Fin 512) (r s : Fin 64) :
    cell p q (⟨r.val * 64 + s.val, by omega⟩ : Fin 4096) = ix4 p q r s := by
  funext a
  apply Fin.ext
  match a with
  | ⟨0, _⟩ => rfl
  | ⟨1, _⟩ => rfl
  | ⟨2, _⟩ =>
    show (r.val * 64 + s.val) / 64 = r.val
    omega
  | ⟨3, _⟩ =>
    show (r.val * 64 + s.val) % 64 = s.val
    omega

end Cert.Pool

end
-- ==== Proof.ReferenceRun.lean ====
/-
  The reference program run from a launch memory, with every buffer named at the end.

  The reference is one straight line of seventy-one host operations: five that average the input over its two
  trailing axes (a sum from zero over axes 2 and 3, then a division by 4096); sixty-three of the channel gate (a
  product with the first weight plus bias, the rectifier — an outlined function of three operations —, the column mean,
  the column variance — an outlined function of nineteen operations that calls a three-operation selection —, the
  normalisation, scale and shift, a product with the second weight plus bias, and the logistic function spelt
  1 / (1 + exp (−z))); three that spread the gate over the trailing axes and multiply the input by it. Listed below
  in order, each outlined function's operations at its call site over that call's own buffers, the line IS the
  program; its run leaves every buffer at the fold of the operations over the launch contents.
-/
import proofs.«110130_j78658031059208_2_alg».proof.Proof.Gen.ReferenceIdeal
import Idealize.ShloMosaic.Lib.StableHlo.Run
import Idealize.ShloMosaic.Lib.Pipeline.Regions

noncomputable section

namespace Cert.ReferenceIdeal.Line

open Cert.ReferenceIdeal Cert.ReferenceIdeal.Gen
open Idealize.ShloMosaic Idealize.ShloMosaic.TcCoe Idealize.SL.Sem Idealize.ShloMosaic.StableHlo

variable {F : FTy → Type} [FloatOps F]

/-- The program's seventy-one operations, in order. -/
abbrev ops : List (HloOp τ sig (Elt F)) :=
  ( StableHlo.nullary main_cst (constant S_ .f32 0x00000000#32)
  :: StableHlo.binary main_arg0 main_cst main_v0 ((fun x v => Host.reduceAdd x v reducesTo_S32x512x64x64_S32x512_d2_3 h_S_) : (⟨S32x512x64x64, .f32⟩ : BufTy).Contents (Elt F) → (⟨S_, .f32⟩ : BufTy).Contents (Elt F) → (⟨S32x512, .f32⟩ : BufTy).Contents (Elt F))
  :: StableHlo.nullary main_cst_0 (constant S_ .f32 0x45800000#32)
  :: StableHlo.unary main_cst_0 main_v1 (broadcastInDim S32x512 ![] bcast_S_S32x512 : (⟨S_, .f32⟩ : BufTy).Contents (Elt F) → (⟨S32x512, .f32⟩ : BufTy).Contents (Elt F))
  :: StableHlo.binary main_v0 main_v1 main_v2 (Host.divf : (⟨S32x512, .f32⟩ : BufTy).Contents (Elt F) → (⟨S32x512, .f32⟩ : BufTy).Contents (Elt F) → (⟨S32x512, .f32⟩ : BufTy).Contents (Elt F))
  :: StableHlo.binary main_v2 main_arg1 main_v3 ((fun l r => Host.dotGeneral dot_S32x512_S128x512_S32x128_1_1_0_0_n_n none l r) : (⟨S32x512, .f32⟩ : BufTy).Contents (Elt F) → (⟨S128x512, .f32⟩ : BufTy).Contents (Elt F) → (⟨S32x128, .f32⟩ : BufTy).Contents (Elt F))
  :: StableHlo.unary main_arg2 main_v4 (broadcastInDim S1x128 ![1] bcast_S128_S1x128_1 : (⟨S128, .f32⟩ : BufTy).Contents (Elt F) → (⟨S1x128, .f32⟩ : BufTy).Contents (Elt F))
  :: StableHlo.unary main_v4 main_v5 (broadcastInDim S32x128 ![0, 1] bcast_S1x128_S32x128_0_1 : (⟨S1x128, .f32⟩ : BufTy).Contents (Elt F) → (⟨S32x128, .f32⟩ : BufTy).Contents (Elt F))
  :: StableHlo.binary main_v3 main_v5 main_v6 (addf : (⟨S32x128, .f32⟩ : BufTy).Contents (Elt F) → (⟨S32x128, .f32⟩ : BufTy).Contents (Elt F) → (⟨S32x128, .f32⟩ : BufTy).Contents (Elt F))
  :: StableHlo.TRef.nullary main_call0.cst (constant S_ .f32 0x00000000#32)
  :: StableHlo.TRef.unary main_call0.cst main_call0.v0 (broadcastInDim S32x128 ![] bcast_S_S32x128)
  :: StableHlo.TRef.binary (.of main_v6) main_call0.v0 main_call0.v1 maximumf
  :: StableHlo.nullary main_cst_1 (constant S_ .f32 0x00000000#32)
  :: StableHlo.binary main_v7 main_cst_1 main_v8 ((fun x v => Host.reduceAdd x v reducesTo_S32x128_S128_d0 h_S_) : (⟨S32x128, .f32⟩ : BufTy).Contents (Elt F) → (⟨S_, .f32⟩ : BufTy).Contents (Elt F) → (⟨S128, .f32⟩ : BufTy).Contents (Elt F))
  :: StableHlo.nullary main_cst_2 (constant S_ .f32 0x42000000#32)
  :: StableHlo.unary main_cst_2 main_v9 (broadcastInDim S128 ![] bcast_S_S128 : (⟨S_, .f32⟩ : BufTy).Contents (Elt F) → (⟨S128, .f32⟩ : BufTy).Contents (Elt F))
  :: StableHlo.binary main_v8 main_v9 main_v10 (Host.divf : (⟨S128, .f32⟩ : BufTy).Contents (Elt F) → (⟨S128, .f32⟩ : BufTy).Contents (Elt F) → (⟨S128, .f32⟩ : BufTy).Contents (Elt F))
  :: StableHlo.nullary main_c (constantI S_ 32 0#32)
  :: StableHlo.TRef.nullary main_call1.cst (constant S_ .f32 0x00000000#32)
  :: StableHlo.TRef.binary (.of main_v7) main_call1.cst main_call1.v0 (fun x v => Host.reduceAdd x v reducesTo_S32x128_S128_d0 h_S_)
  :: StableHlo.TRef.unary main_call1.v0 main_call1.v1 (broadcastInDim S1x128 ![1] bcast_S128_S1x128_1)
  :: StableHlo.TRef.nullary main_call1.cst_0 (constant S_ .f32 0x42000000#32)
  :: StableHlo.TRef.unary main_call1.cst_0 main_call1.v2 (broadcastInDim S1x128 ![] bcast_S_S1x128)
  :: StableHlo.TRef.binary main_call1.v1 main_call1.v2 main_call1.v3 Host.divf
  :: StableHlo.TRef.unary main_call1.v3 main_call1.v4 (broadcastInDim S32x128 ![0, 1] bcast_S1x128_S32x128_0_1)
  :: StableHlo.TRef.binary (.of main_v7) main_call1.v4 main_call1.v5 subf
  :: StableHlo.TRef.binary main_call1.v5 main_call1.v5 main_call1.v6 mulf
  :: StableHlo.TRef.unary (.of main_c) main_call1.v7 (sitofp .f32)
  :: StableHlo.TRef.nullary main_call1.cst_1 (constant S_ .f32 0x42000000#32)
  :: StableHlo.TRef.binary main_call1.cst_1 main_call1.v7 main_call1.v8 subf
  :: StableHlo.TRef.nullary main_call1.cst_2 (constant S_ .f32 0x00000000#32)
  :: StableHlo.TRef.binary main_call1.v6 main_call1.cst_2 main_call1.v9 (fun x v => Host.reduceAdd x v reducesTo_S32x128_S128_d0 h_S_)
  :: StableHlo.TRef.unary main_call1.v8 main_call1.v10 (broadcastInDim S128 ![] bcast_S_S128)
  :: StableHlo.TRef.binary main_call1.v9 main_call1.v10 main_call1.v11 Host.divf
  :: StableHlo.TRef.nullary main_call1.cst_3 (constant S_ .f32 0x00000000#32)
  :: StableHlo.TRef.binary main_call1.v8 main_call1.cst_3 main_call1.v12 (cmpf .ogt)
  :: StableHlo.TRef.nullary main_call1.cst_4 (constant S_ .f32 0x7FC00000#32)
  :: StableHlo.TRef.unary main_call1.cst_4 main_call1.call0.v0 id
  :: StableHlo.TRef.unary main_call1.call0.v0 main_call1.call0.v1 (broadcastInDim S128 ![] bcast_S_S128)
  :: StableHlo.TRef.ternary main_call1.v12 main_call1.v11 main_call1.call0.v1 main_call1.call0.v2 (fun p a b => select (broadcastInDim S128 ![] bcast_S_S128 p) a b)
  :: StableHlo.unary main_v10 main_v12 (broadcastInDim S1x128 ![1] bcast_S128_S1x128_1 : (⟨S128, .f32⟩ : BufTy).Contents (Elt F) → (⟨S1x128, .f32⟩ : BufTy).Contents (Elt F))
  :: StableHlo.unary main_v12 main_v13 (broadcastInDim S32x128 ![0, 1] bcast_S1x128_S32x128_0_1 : (⟨S1x128, .f32⟩ : BufTy).Contents (Elt F) → (⟨S32x128, .f32⟩ : BufTy).Contents (Elt F))
  :: StableHlo.binary main_v7 main_v13 main_v14 (subf : (⟨S32x128, .f32⟩ : BufTy).Contents (Elt F) → (⟨S32x128, .f32⟩ : BufTy).Contents (Elt F) → (⟨S32x128, .f32⟩ : BufTy).Contents (Elt F))
  :: StableHlo.nullary main_cst_3 (constant S_ .f32 0x3727C5AC#32)
  :: StableHlo.unary main_cst_3 main_v15 (broadcastInDim S128 ![] bcast_S_S128 : (⟨S_, .f32⟩ : BufTy).Contents (Elt F) → (⟨S128, .f32⟩ : BufTy).Contents (Elt F))
  :: StableHlo.binary main_v11 main_v15 main_v16 (addf : (⟨S128, .f32⟩ : BufTy).Contents (Elt F) → (⟨S128, .f32⟩ : BufTy).Contents (Elt F) → (⟨S128, .f32⟩ : BufTy).Contents (Elt F))
  :: StableHlo.unary main_v16 main_v17 (Host.rsqrt : (⟨S128, .f32⟩ : BufTy).Contents (Elt F) → (⟨S128, .f32⟩ : BufTy).Contents (Elt F))
  :: StableHlo.unary main_v17 main_v18 (broadcastInDim S1x128 ![1] bcast_S128_S1x128_1 : (⟨S128, .f32⟩ : BufTy).Contents (Elt F) → (⟨S1x128, .f32⟩ : BufTy).Contents (Elt F))
  :: StableHlo.unary main_v18 main_v19 (broadcastInDim S32x128 ![0, 1] bcast_S1x128_S32x128_0_1 : (⟨S1x128, .f32⟩ : BufTy).Contents (Elt F) → (⟨S32x128, .f32⟩ : BufTy).Contents (Elt F))
  :: StableHlo.binary main_v14 main_v19 main_v20 (mulf : (⟨S32x128, .f32⟩ : BufTy).Contents (Elt F) → (⟨S32x128, .f32⟩ : BufTy).Contents (Elt F) → (⟨S32x128, .f32⟩ : BufTy).Contents (Elt F))
  :: StableHlo.unary main_arg3 main_v21 (broadcastInDim S1x128 ![1] bcast_S128_S1x128_1 : (⟨S128, .f32⟩ : BufTy).Contents (Elt F) → (⟨S1x128, .f32⟩ : BufTy).Contents (Elt F))
  :: StableHlo.unary main_v21 main_v22 (broadcastInDim S32x128 ![0, 1] bcast_S1x128_S32x128_0_1 : (⟨S1x128, .f32⟩ : BufTy).Contents (Elt F) → (⟨S32x128, .f32⟩ : BufTy).Contents (Elt F))
  :: StableHlo.binary main_v20 main_v22 main_v23 (mulf : (⟨S32x128, .f32⟩ : BufTy).Contents (Elt F) → (⟨S32x128, .f32⟩ : BufTy).Contents (Elt F) → (⟨S32x128, .f32⟩ : BufTy).Contents (Elt F))
  :: StableHlo.unary main_arg4 main_v24 (broadcastInDim S1x128 ![1] bcast_S128_S1x128_1 : (⟨S128, .f32⟩ : BufTy).Contents (Elt F) → (⟨S1x128, .f32⟩ : BufTy).Contents (Elt F))
  :: StableHlo.unary main_v24 main_v25 (broadcastInDim S32x128 ![0, 1] bcast_S1x128_S32x128_0_1 : (⟨S1x128, .f32⟩ : BufTy).Contents (Elt F) → (⟨S32x128, .f32⟩ : BufTy).Contents (Elt F))
  :: StableHlo.binary main_v23 main_v25 main_v26 (addf : (⟨S32x128, .f32⟩ : BufTy).Contents (Elt F) → (⟨S32x128, .f32⟩ : BufTy).Contents (Elt F) → (⟨S32x128, .f32⟩ : BufTy).Contents (Elt F))
  :: StableHlo.binary main_v26 main_arg5 main_v27 ((fun l r => Host.dotGeneral dot_S32x128_S512x128_S32x512_1_1_0_0_n_n none l r) : (⟨S32x128, .f32⟩ : BufTy).Contents (Elt F) → (⟨S512x128, .f32⟩ : BufTy).Contents (Elt F) → (⟨S32x512, .f32⟩ : BufTy).Contents (Elt F))
  :: StableHlo.unary main_arg6 main_v28 (broadcastInDim S1x512 ![1] bcast_S512_S1x512_1 : (⟨S512, .f32⟩ : BufTy).Contents (Elt F) → (⟨S1x512, .f32⟩ : BufTy).Contents (Elt F))
  :: StableHlo.unary main_v28 main_v29 (broadcastInDim S32x512 ![0, 1] bcast_S1x512_S32x512_0_1 : (⟨S1x512, .f32⟩ : BufTy).Contents (Elt F) → (⟨S32x512, .f32⟩ : BufTy).Contents (Elt F))
  :: StableHlo.binary main_v27 main_v29 main_v30 (addf : (⟨S32x512, .f32⟩ : BufTy).Contents (Elt F) → (⟨S32x512, .f32⟩ : BufTy).Contents (Elt F) → (⟨S32x512, .f32⟩ : BufTy).Contents (Elt F))
  :: StableHlo.unary main_v30 main_v31 (Host.negf : (⟨S32x512, .f32⟩ : BufTy).Contents (Elt F) → (⟨S32x512, .f32⟩ : BufTy).Contents (Elt F))
  :: StableHlo.unary main_v31 main_v32 (Host.exp : (⟨S32x512, .f32⟩ : BufTy).Contents (Elt F) → (⟨S32x512, .f32⟩ : BufTy).Contents (Elt F))
  :: StableHlo.nullary main_cst_4 (constant S_ .f32 0x3F800000#32)
  :: StableHlo.unary main_cst_4 main_v33 (broadcastInDim S32x512 ![] bcast_S_S32x512 : (⟨S_, .f32⟩ : BufTy).Contents (Elt F) → (⟨S32x512, .f32⟩ : BufTy).Contents (Elt F))
  :: StableHlo.binary main_v33 main_v32 main_v34 (addf : (⟨S32x512, .f32⟩ : BufTy).Contents (Elt F) → (⟨S32x512, .f32⟩ : BufTy).Contents (Elt F) → (⟨S32x512, .f32⟩ : BufTy).Contents (Elt F))
  :: StableHlo.nullary main_cst_5 (constant S_ .f32 0x3F800000#32)
  :: StableHlo.unary main_cst_5 main_v35 (broadcastInDim S32x512 ![] bcast_S_S32x512 : (⟨S_, .f32⟩ : BufTy).Contents (Elt F) → (⟨S32x512, .f32⟩ : BufTy).Contents (Elt F))
  :: StableHlo.binary main_v35 main_v34 main_v36 (Host.divf : (⟨S32x512, .f32⟩ : BufTy).Contents (Elt F) → (⟨S32x512, .f32⟩ : BufTy).Contents (Elt F) → (⟨S32x512, .f32⟩ : BufTy).Contents (Elt F))
  :: StableHlo.unary main_v36 main_v37 (broadcastInDim S32x512x1x1 ![0, 1] bcast_S32x512_S32x512x1x1_0_1 : (⟨S32x512, .f32⟩ : BufTy).Contents (Elt F) → (⟨S32x512x1x1, .f32⟩ : BufTy).Contents (Elt F))
  :: StableHlo.unary main_v37 main_v38 (broadcastInDim S32x512x64x64 ![0, 1, 2, 3] bcast_S32x512x1x1_S32x512x64x64_0_1_2_3 : (⟨S32x512x1x1, .f32⟩ : BufTy).Contents (Elt F) → (⟨S32x512x64x64, .f32⟩ : BufTy).Contents (Elt F))
  :: StableHlo.binary main_arg0 main_v38 main_v39 (mulf : (⟨S32x512x64x64, .f32⟩ : BufTy).Contents (Elt F) → (⟨S32x512x64x64, .f32⟩ : BufTy).Contents (Elt F) → (⟨S32x512x64x64, .f32⟩ : BufTy).Contents (Elt F))
  :: [] )

/-- The program is that line: with the outlined functions unfolded at their calls and the sequencing re-associated the
    two sides are the same chain of operations, one after the other. -/
theorem main_eq (c : Dev nD) : main (F := F) c = seq ops := by
  chain_rfl

theorem scopedRefs_eq : (Finset.univ.filter fun b : Ref sig .tc => b.isScoped) = ∅ := by decide
theorem scopedSems_eq : (Finset.univ.filter fun sm : SemLoc sig => sm.isScoped .tc) = ∅ := by decide

/-- Every operation touches buffers of the TensorCore only. -/
theorem ops_sub : (ops : List (HloOp τ sig (Elt F))).Forall fun op => op.bufs ⊆ tcRefs τ sig :=
  ⟨
    nullary_bufs_sub .., binary_bufs_sub .., nullary_bufs_sub .., unary_bufs_sub .., binary_bufs_sub .., binary_bufs_sub ..,
    unary_bufs_sub .., unary_bufs_sub .., binary_bufs_sub .., nullary_bufs_sub .., unary_bufs_sub .., binary_bufs_sub ..,
    nullary_bufs_sub .., binary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., binary_bufs_sub .., nullary_bufs_sub .., binary_bufs_sub ..,
    nullary_bufs_sub .., unary_bufs_sub .., unary_bufs_sub .., ternary_bufs_sub .., unary_bufs_sub .., unary_bufs_sub ..,
    binary_bufs_sub .., nullary_bufs_sub .., unary_bufs_sub .., binary_bufs_sub .., unary_bufs_sub .., unary_bufs_sub ..,
    unary_bufs_sub .., binary_bufs_sub .., unary_bufs_sub .., unary_bufs_sub .., binary_bufs_sub .., unary_bufs_sub ..,
    unary_bufs_sub .., binary_bufs_sub .., binary_bufs_sub .., unary_bufs_sub .., unary_bufs_sub .., binary_bufs_sub ..,
    unary_bufs_sub .., unary_bufs_sub .., nullary_bufs_sub .., unary_bufs_sub .., binary_bufs_sub .., nullary_bufs_sub ..,
    unary_bufs_sub .., binary_bufs_sub .., unary_bufs_sub .., unary_bufs_sub .., binary_bufs_sub ..⟩

/-- Every weakly fair execution of the reference terminates without a fault, and at the end every buffer holds the fold
    of the seventy-one operations over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ

end Cert.ReferenceIdeal.Line

end
-- ==== Proof.ReferenceValue.lean ====
/-
  What the reference computes, as one function of its seven arguments.

  Read back through its seventy-one operations, the reference's result is the input multiplied, entry (b, c, h, w) by
  entry, by the gate's entry (b, c) — the gate (the function `Cert.Gate.gate`) taken at the average `avg x` of the input
  over its trailing axes: the sum from zero over axes 2 and 3 divided by 4096. No operation writes an argument.
-/
import proofs.«110130_j78658031059208_2_alg».proof.Proof.ReferenceRun
import proofs.«110130_j78658031059208_2_alg».proof.Proof.LibOutlined
import proofs.«110130_j78658031059208_2_alg».proof.Proof.Gate

noncomputable section

namespace Cert.ReferenceIdeal.RefValue

open Cert.ReferenceIdeal Cert.ReferenceIdeal.Gen Cert.ReferenceIdeal.Line
open Idealize.ShloMosaic Idealize.ShloMosaic.TcCoe Idealize.SL.Sem Idealize.ShloMosaic.StableHlo

variable {F : FTy → Type} [FloatOps F]

/-- The average over the trailing axes as the reference spells it: the sum from zero over axes 2 and 3, divided by 4096. -/
def avg (x : FVec F S32x512x64x64 .f32) : FVec F S32x512 .f32 :=
  Host.divf (Host.reduceAdd x (constant (F := F) S_ .f32 0x00000000#32) reducesTo_S32x512x64x64_S32x512_d2_3 h_S_)
    (broadcastInDim S32x512 ![] bcast_S_S32x512 (constant (F := F) S_ .f32 0x45800000#32))

/-- A [32, 512] array spread over the two trailing axes. -/
def spread (g : FVec F S32x512 .f32) : FVec F S32x512x64x64 .f32 :=
  broadcastInDim S32x512x64x64 ![0, 1, 2, 3] bcast_S32x512x1x1_S32x512x64x64_0_1_2_3
    (broadcastInDim S32x512x1x1 ![0, 1] bcast_S32x512_S32x512x1x1_0_1 g)

/-- The reference's result: the input times the spread gate of its average. -/
def result (x : FVec F S32x512x64x64 .f32) (w1 : FVec F S128x512 .f32) (b1 gamma beta : FVec F S128 .f32)
    (w2 : FVec F S512x128 .f32) (b2 : FVec F S512 .f32) : FVec F S32x512x64x64 .f32 :=
  mulf x (spread (Cert.Gate.gate (avg x) w1 b1 gamma beta w2 b2))

set_option maxHeartbeats 4000000 in
/-- The fold of the seventy-one operations, read at the result buffer: each operation's result where it is read, the
    transports between an outlined function's values cancelling in pairs. -/
theorem result_eq (V : Valuation τ sig (Elt F)) :
    after (ops (F := F)) V (Proc.devRef .tc main_v39)
      = result (V (Proc.devRef .tc main_arg0)) (V (Proc.devRef .tc main_arg1)) (V (Proc.devRef .tc main_arg2))
          (V (Proc.devRef .tc main_arg3)) (V (Proc.devRef .tc main_arg4)) (V (Proc.devRef .tc main_arg5))
          (V (Proc.devRef .tc main_arg6)) := by
  after_results_simp
  simp only [Cert.Lib.Outlined.ofBuf_toBuf]
  rfl

/-! No operation writes an argument's buffer. -/
theorem arg0_kept (V : Valuation τ sig (Elt F)) :
    after (ops (F := F)) V (Proc.devRef .tc main_arg0) = V (Proc.devRef .tc main_arg0) := by
  after_results_simp
theorem arg1_kept (V : Valuation τ sig (Elt F)) :
    after (ops (F := F)) V (Proc.devRef .tc main_arg1) = V (Proc.devRef .tc main_arg1) := by
  after_results_simp
theorem arg2_kept (V : Valuation τ sig (Elt F)) :
    after (ops (F := F)) V (Proc.devRef .tc main_arg2) = V (Proc.devRef .tc main_arg2) := by
  after_results_simp
theorem arg3_kept (V : Valuation τ sig (Elt F)) :
    after (ops (F := F)) V (Proc.devRef .tc main_arg3) = V (Proc.devRef .tc main_arg3) := by
  after_results_simp
theorem arg4_kept (V : Valuation τ sig (Elt F)) :
    after (ops (F := F)) V (Proc.devRef .tc main_arg4) = V (Proc.devRef .tc main_arg4) := by
  after_results_simp
theorem arg5_kept (V : Valuation τ sig (Elt F)) :
    after (ops (F := F)) V (Proc.devRef .tc main_arg5) = V (Proc.devRef .tc main_arg5) := by
  after_results_simp
theorem arg6_kept (V : Valuation τ sig (Elt F)) :
    after (ops (F := F)) V (Proc.devRef .tc main_arg6) = V (Proc.devRef .tc main_arg6) := by
  after_results_simp

/-- Every weakly fair execution of the reference terminates without a fault with its result at `result` of the arguments'
    launch contents, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v39)
          = result (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
              (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
      ⟨(h c main_v39).trans (result_eq (launchContents m c)),
       (h c main_arg0).trans (arg0_kept (launchContents m c)),
       (h c main_arg1).trans (arg1_kept (launchContents m c)),
       (h c main_arg2).trans (arg2_kept (launchContents m c)),
       (h c main_arg3).trans (arg3_kept (launchContents m c)),
       (h c main_arg4).trans (arg4_kept (launchContents m c)),
       (h c main_arg5).trans (arg5_kept (launchContents m c)),
       (h c main_arg6).trans (arg6_kept (launchContents m c))⟩)
    (run_all m ρ)

end Cert.ReferenceIdeal.RefValue

end
-- ==== Proof.Bridge.lean ====
/-
  The two programs compute one function.

  The kernel's result, as its five stretches compose: flatten the input x to xf of shape [32, 512, 4096]; take the
  row means of xf (each row summed, times 2⁻¹²); apply the gate; write the gate as a column [32, 512, 1]; scale xf row
  by row by that column; read the product back as [32, 512, 64, 64]. The reference's: x times the gate of the average
  of x over its trailing axes, spread back over them.

  Entry (p, q, r, s) of either is x (p, q, r, s) · gate(…)(p, q): position 64 r + s of row (p, q) of xf is x's entry
  (p, q, r, s), and the column's entry (p, q, 0) is the gate's entry (p, q). And the gate is taken at the same array:
  the row means of xf are the averages of x, entry by entry, by the law of the pool — for every x, infinite entries
  included; nothing here needs the inputs finite.
-/
import proofs.«110130_j78658031059208_2_alg».proof.Proof.PoolLaw
import proofs.«110130_j78658031059208_2_alg».proof.Proof.PoolBlocks
import proofs.«110130_j78658031059208_2_alg».proof.Proof.MulBlocks
import proofs.«110130_j78658031059208_2_alg».proof.Proof.ReferenceValue
import proofs.«110130_j78658031059208_2_alg».proof.Proof.LibStackLayout

noncomputable section

open scoped BigOperators

namespace Cert.Bridge

open Idealize.ShloMosaic Idealize.ShloMosaic.ValueIdx
open Cert.Pool

/-- The row means of the flattened input are the reference's averages. -/
theorem rowMeans_flatten (x : Planes.Idx → EReal) :
    Cert.KernelIdeal.PoolValue.rowMeans
        (shapeCast Cert.KernelIdeal.S32x512x4096 x Cert.KernelIdeal.Gen.shapeCasts_S32x512x64x64_S32x512x4096)
      = Cert.ReferenceIdeal.RefValue.avg (F := Ideal) x := by
  funext j
  obtain ⟨p, q, rfl⟩ : ∃ (p : Fin 32) (q : Fin 512), j = ix2 p q := ⟨j 0, j 1, eq_ix2 j⟩
  show (∑ k : Fin 4096, shapeCast Rows x Cert.KernelIdeal.Gen.shapeCasts_S32x512x64x64_S32x512x4096 (ix3 p q k))
        * Ideal.ofBits .f32 0x39800000#32
      = Ideal.div (Ideal.hostReduceAdd Cert.ReferenceIdeal.Gen.reducesTo_S32x512x64x64_S32x512_d2_3 x
          (Ideal.ofBits .f32 0x00000000#32) (ix2 p q)) (Ideal.ofBits .f32 0x45800000#32)
  rw [mean_eq, Ideal.ofBits_zero_f32, zero_add]
  exact congrArg (· * Ideal.ofBits .f32 0x39800000#32)
    (Finset.sum_congr rfl fun k _ => flatten_apply x _ p q k)

/-- A [32, 512] array spread over the trailing axes reads, at (p, q, r, s), its entry (p, q). -/
theorem spread_apply (g : Cells.Idx → EReal) (p : Fin 32) (q : Fin 512) (r s : Fin 64) :
    Cert.ReferenceIdeal.RefValue.spread (F := Ideal) g (ix4 p q r s) = g (ix2 p q) := by
  unfold Cert.ReferenceIdeal.RefValue.spread
  refine (broadcastInDim_apply _ _ _ (ix4 p q r s) (ix4 p q (0 : Fin 1) (0 : Fin 1)) fun a => ?_).trans
    (broadcastInDim_apply _ _ g (ix4 p q (0 : Fin 1) (0 : Fin 1)) (ix2 p q) fun a => ?_)
  · match a with
    | ⟨0, _⟩ => rfl
    | ⟨1, _⟩ => rfl
    | ⟨2, _⟩ => rfl
    | ⟨3, _⟩ => rfl
  · match a with
    | ⟨0, _⟩ => rfl
    | ⟨1, _⟩ => rfl

/-- The kernel's result as its stretches compose, from the seven arguments. -/
def kernelResult (x : Planes.Idx → EReal) (w1 : FVec Ideal Cert.ReferenceIdeal.S128x512 .f32)
    (b1 gamma beta : FVec Ideal Cert.ReferenceIdeal.S128 .f32) (w2 : FVec Ideal Cert.ReferenceIdeal.S512x128 .f32)
    (b2 : FVec Ideal Cert.ReferenceIdeal.S512 .f32) : Planes.Idx → EReal :=
  shapeCast Cert.KernelIdeal.S32x512x64x64
    (Cert.KernelIdeal.MulValue.scaled
      (shapeCast Cert.KernelIdeal.S32x512x4096 x Cert.KernelIdeal.Gen.shapeCasts_S32x512x64x64_S32x512x4096)
      (shapeCast Cert.KernelIdeal.S32x512x1
        (Cert.Gate.gate (F := Ideal)
          (Cert.KernelIdeal.PoolValue.rowMeans
            (shapeCast Cert.KernelIdeal.S32x512x4096 x Cert.KernelIdeal.Gen.shapeCasts_S32x512x64x64_S32x512x4096))
          w1 b1 gamma beta w2 b2)
        Cert.KernelIdeal.Gen.shapeCasts_S32x512_S32x512x1))
    Cert.KernelIdeal.Gen.shapeCasts_S32x512x4096_S32x512x64x64

/-- THE BRIDGE: it is the reference's result. -/
theorem kernelResult_eq (x : Planes.Idx → EReal) (w1 : FVec Ideal Cert.ReferenceIdeal.S128x512 .f32)
    (b1 gamma beta : FVec Ideal Cert.ReferenceIdeal.S128 .f32) (w2 : FVec Ideal Cert.ReferenceIdeal.S512x128 .f32)
    (b2 : FVec Ideal Cert.ReferenceIdeal.S512 .f32) :
    kernelResult x w1 b1 gamma beta w2 b2 = Cert.ReferenceIdeal.RefValue.result (F := Ideal) x w1 b1 gamma beta w2 b2 := by
  unfold kernelResult
  rw [rowMeans_flatten]
  funext i
  obtain ⟨p, q, r, s, rfl⟩ : ∃ (p : Fin 32) (q : Fin 512) (r s : Fin 64), i = ix4 p q r s :=
    ⟨i 0, i 1, i 2, i 3, eq_ix4 i⟩
  refine (unflatten_apply _ _ p q r s).trans ?_
  refine (Cert.KernelIdeal.MulValue.scaled_apply _ _ p q _).trans ?_
  show _ = x (ix4 p q r s) * Cert.ReferenceIdeal.RefValue.spread (F := Ideal) _ (ix4 p q r s)
  rw [spread_apply, flatten_apply, cell_pos]
  exact congrArg (x (ix4 p q r s) * ·) (Cert.StackLayout.shapeCast_ma_ma1_apply _ _ p q (0 : Fin 1))

end Cert.Bridge

end
-- ==== Proof.KernelValue.lean ====
/-
  What the idealized kernel leaves in its result buffer, as one function of its seven arguments.

  The run leaves every buffer at the last value of a fold through the program's five stretches. Read at the result
  buffer and walked back, stretch by stretch: the last reshape reads the multiply region's output array; that array is
  the flattened input scaled by the gate column, both as the region found them; the gate column is what the middle
  stretch made of the pooled array and the parameters, and the flattened input came through that stretch untouched; the
  pooled array is the row means of the flattened input as the pooling region found it, which the region did not
  write; the flattened input is the first reshape of the input argument; and the parameters are as launched. Composed,
  that is `Cert.Bridge.kernelResult` of the launch contents of the arguments.
-/
import proofs.«110130_j78658031059208_2_alg».proof.Proof.KernelRun
import proofs.«110130_j78658031059208_2_alg».proof.Proof.KernelHost
import proofs.«110130_j78658031059208_2_alg».proof.Proof.PoolBlocks
import proofs.«110130_j78658031059208_2_alg».proof.Proof.MulBlocks
import proofs.«110130_j78658031059208_2_alg».proof.Proof.Bridge

set_option maxRecDepth 16384

noncomputable section

namespace Cert.KernelIdeal.Whole

open Idealize.ShloMosaic Idealize.ShloMosaic.TcCoe
open Idealize.SL Idealize.SL.Sem
open Cert.KernelIdeal Cert.KernelIdeal.Gen

variable (m : (ℓ : Loc nD τ sig) → Buf (Elt Ideal) ℓ) (ρ : Dev nD → PrngReg)

/-- The fold's last value at the result buffer is the composed function of the arguments' launch contents. -/
theorem result_fold (c : Dev nD) :
    W5 m ρ c (Proc.devRef .tc main_v0)
      = Cert.Bridge.kernelResult (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) := by
  -- the last reshape reads the multiply region's output array
  have e5 : W5 m ρ c (Proc.devRef .tc main_v0)
      = shapeCast S32x512x64x64 (W4 m ρ c (Proc.devRef .tc main_call0_v37)) shapeCasts_S32x512x4096_S32x512x64x64 :=
    HostValue.unflatten_stretch (W4 m ρ c)
  -- that array: the flattened input scaled by the gate column, as the region found them
  have e4 : W4 m ρ c (Proc.devRef .tc main_call0_v37)
      = MulValue.scaled (V3 m ρ c main_call0_v0) (V3 m ρ c main_call0_v36) :=
    (W4_arr m ρ c 2).trans (MulValue.product (V3 m ρ) c)
  -- the middle stretch: the flattened input untouched, the gate column made
  have e3a : V3 m ρ c main_call0_v0 = W2 m ρ c (Proc.devRef .tc main_call0_v0) :=
    HostValue.gate_stretch_keeps_input (W2 m ρ c)
  have e3b : V3 m ρ c main_call0_v36
      = shapeCast S32x512x1
          (Cert.Gate.gate (F := Ideal) (W2 m ρ c (Proc.devRef .tc main_call0_v1)) (W2 m ρ c (Proc.devRef .tc main_arg1))
            (W2 m ρ c (Proc.devRef .tc main_arg2)) (W2 m ρ c (Proc.devRef .tc main_arg3)) (W2 m ρ c (Proc.devRef .tc main_arg4))
            (W2 m ρ c (Proc.devRef .tc main_arg5)) (W2 m ρ c (Proc.devRef .tc main_arg6)))
          shapeCasts_S32x512_S32x512x1 :=
    HostValue.gate_stretch (W2 m ρ c)
  -- the pooling region: its input kept, its output the row means
  have e2a : W2 m ρ c (Proc.devRef .tc main_call0_v0) = V1 m ρ c main_call0_v0 :=
    (W2_arr m ρ c 0).trans (PoolValue.input_kept (V1 m ρ) c)
  have e2b : W2 m ρ c (Proc.devRef .tc main_call0_v1) = PoolValue.rowMeans (V1 m ρ c main_call0_v0) :=
    (W2_arr m ρ c 1).trans (PoolValue.pooled (V1 m ρ) c)
  -- the parameters reach the middle stretch as launched
  have a1 : W2 m ρ c (Proc.devRef .tc main_arg1) = m ((c : Thread nD τ).loc main_arg1) :=
    (W2_of_ne m ρ c main_arg1 (by decide)).trans (HostValue.flatten_keeps_arg1 (W0 m ρ c))
  have a2 : W2 m ρ c (Proc.devRef .tc main_arg2) = m ((c : Thread nD τ).loc main_arg2) :=
    (W2_of_ne m ρ c main_arg2 (by decide)).trans (HostValue.flatten_keeps_arg2 (W0 m ρ c))
  have a3 : W2 m ρ c (Proc.devRef .tc main_arg3) = m ((c : Thread nD τ).loc main_arg3) :=
    (W2_of_ne m ρ c main_arg3 (by decide)).trans (HostValue.flatten_keeps_arg3 (W0 m ρ c))
  have a4 : W2 m ρ c (Proc.devRef .tc main_arg4) = m ((c : Thread nD τ).loc main_arg4) :=
    (W2_of_ne m ρ c main_arg4 (by decide)).trans (HostValue.flatten_keeps_arg4 (W0 m ρ c))
  have a5 : W2 m ρ c (Proc.devRef .tc main_arg5) = m ((c : Thread nD τ).loc main_arg5) :=
    (W2_of_ne m ρ c main_arg5 (by decide)).trans (HostValue.flatten_keeps_arg5 (W0 m ρ c))
  have a6 : W2 m ρ c (Proc.devRef .tc main_arg6) = m ((c : Thread nD τ).loc main_arg6) :=
    (W2_of_ne m ρ c main_arg6 (by decide)).trans (HostValue.flatten_keeps_arg6 (W0 m ρ c))
  -- the first reshape
  have e1 : V1 m ρ c main_call0_v0
      = shapeCast S32x512x4096 (m ((c : Thread nD τ).loc main_arg0)) shapeCasts_S32x512x64x64_S32x512x4096 :=
    HostValue.flatten_stretch (W0 m ρ c)
  rw [e5, e4, e3a, e3b, e2a, e2b, a1, a2, a3, a4, a5, a6, e1]
  rfl

/-- Every weakly fair execution of the idealized kernel terminates without a fault with its result at
    `Cert.Bridge.kernelResult` of the arguments' launch contents, and the arguments unchanged. -/
theorem run : θ_run defs (onTc (τ := τ) (main (F := Ideal))) ⟨m, fun _ => 0, ρ⟩ (fun r => ∀ c : Dev nD,
      r.2.mem ((c.tc : Thread nD τ).loc main_v0)
          = Cert.Bridge.kernelResult (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
              (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
      ⟨(Run.result_mem m ρ r h c).trans (result_fold m ρ c),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c)⟩)
    (Run.run_all m ρ)

end Cert.KernelIdeal.Whole

end
-- ==== Proof.lean ====
/-
  A squeeze-and-excitation layer, kernel against reference, on the extended reals.

  The input x is [32, 512, 64, 64]. Both programs average x over its two trailing axes, turn the [32, 512] averages
  into a gate with the same small network (a product with w1 plus b1, the rectifier, a normalisation by the column mean
  and variance over the batch with scale gamma and shift beta, a product with w2 plus b2, the logistic function), and
  multiply x, entry (b, c, h, w), by the gate's entry (b, c).

  The kernel does the average and the product in two grid regions over x flattened to [32, 512, 4096]: the first sums
  each row of 4096 and multiplies by the float 2⁻¹², block by block of 8 × 128 rows; the second scales each row by its gate
  entry, block by block of 8 × 64 rows. The reference sums from zero over the two trailing axes and divides by the float
  4096, and multiplies by the gate spread over those axes. The gate's operations are the same in both, literal for
  literal, and are carried as one function. What is proved equal is therefore the average — a finite sum regrouped, and
  a division by 4096 against a product with 1/4096, equal at every extended real — and the layout of the product. No
  step needs the inputs finite; the precondition is not used.

  The modules: KernelRun (the kernel's run, every buffer named), KernelHost (its three host stretches), PoolBlocks and
  MulBlocks (each region's output array as one function of what it reads), KernelValue (the result buffer read back
  through the five stretches); ReferenceRun and ReferenceValue (the reference's line of operations and its result);
  Gate (the shared network); PoolLaw and Bridge (the mathematics: the two averages agree, the two results agree).
-/
import proofs.«110130_j78658031059208_2_alg».proof.Defs
import proofs.«110130_j78658031059208_2_alg».proof.Proof.Gen.Kernel
import proofs.«110130_j78658031059208_2_alg».proof.Proof.Gen.Kernel.Frame
import proofs.«110130_j78658031059208_2_alg».proof.Proof.Gen.KernelIdeal
import proofs.«110130_j78658031059208_2_alg».proof.Proof.Gen.KernelIdeal.Frame
import proofs.«110130_j78658031059208_2_alg».proof.Proof.Gen.ReferenceIdeal
import proofs.«110130_j78658031059208_2_alg».proof.Proof.Gen.Pre_finite_inputs
import proofs.«110130_j78658031059208_2_alg».proof.Proof.KernelValue
import proofs.«110130_j78658031059208_2_alg».proof.Proof.ReferenceValue
import proofs.«110130_j78658031059208_2_alg».proof.Proof.Bridge

noncomputable section

namespace Cert.Proof

open Idealize.ShloMosaic Idealize.SL.Sem

/-- The kernel as printed runs, and leaves its arguments as launched: its two regions and three host stretches write
    only buffers of their own. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments as launched: its run, with the result forgotten. -/
theorem frame_referenceIdeal : Cert.frame_ReferenceIdeal := fun m ρ _ =>
  (θ_run Cert.ReferenceIdeal.defs _ _).mono (fun _ h c => (h c).2)
    (Cert.ReferenceIdeal.RefValue.run (F := Ideal) m ρ)

/-- The idealization rewrote no operation of the kernel. -/
theorem preserves : Cert.preserves_Kernel_KernelIdeal := trivial

/-- From memories that agree on the seven arguments, both idealized programs end with the input times the gate of its
    average: the kernel's composed result is the reference's (`Cert.Bridge.kernelResult_eq`), at equal arguments. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.RefValue.run (F := Ideal) m' ρ')
  obtain ⟨h0, h1, h2, h3, h4, h5, h6⟩ := hagree c
  rw [h0, h1, h2, h3, h4, h5, h6]
  exact (Cert.Bridge.kernelResult_eq _ _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
